-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096 : Shape := ⟨1, ![4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4096x4096 .f32) (main_arg1 : FVec F S4096x4096 .f32) (main_arg2 : FVec F S4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4096x4096 : Shape := ⟨2, ![4096, 4096]⟩
abbrev S4096 : Shape := ⟨1, ![4096]⟩
abbrev S1x4096 : Shape := ⟨2, ![1, 4096]⟩
abbrev S512x512 : Shape := ⟨2, ![512, 512]⟩
abbrev S1x512 : Shape := ⟨2, ![1, 512]⟩
abbrev S512x16x32 : Shape := ⟨3, ![512, 16, 32]⟩
abbrev S512x16 : Shape := ⟨2, ![512, 16]⟩
abbrev S512x16x1 : Shape := ⟨3, ![512, 16, 1]⟩
abbrev S16x32x16x32 : Shape := ⟨4, ![16, 32, 16, 32]⟩
abbrev S16x32x16 : Shape := ⟨3, ![16, 32, 16]⟩
abbrev S16x32x16x1 : Shape := ⟨4, ![16, 32, 16, 1]⟩
abbrev S16x16x1 : Shape := ⟨3, ![16, 16, 1]⟩
abbrev S16x1x16x1 : Shape := ⟨4, ![16, 1, 16, 1]⟩

abbrev nBuf : Space → Nat
  | .hbm => 6
  | .vmem => 9
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S1x4096, .f32⟩
  | .hbm, ⟨5, _⟩ => ⟨S4096x4096, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S1x512, .f32⟩
  | .local _ .vmem, ⟨5, _⟩ => ⟨S1x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 8], ![false, false, false]⟩

def k0_cond2 (i : grid0.Coords) : BitVec 1 :=
  let arg2 : BitVec 32 := BitVec.ofNat 32 (i 2).val
  let c7_i32 : BitVec 32 := 7#32
  let v56 : BitVec 1 := Scalar.cmpi .eq arg2 c7_i32
  let v57 : BitVec 32 := Scalar.extui v56
  let c0_i32_21 : BitVec 32 := 0#32
  let v58 : BitVec 1 := Scalar.cmpi .ne v57 c0_i32_21
  v58

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  transposes_S4096x4096_S4096x4096_1_0 : S4096x4096.Transposes [1, 0] S4096x4096
  shapeCasts_S4096_S1x4096 : S4096.ShapeCasts S1x4096
  inb_S512x512_S512x512_0_0 : ∀ a, (![0, 0] : Fin 2 → Nat) a + S512x512.size a ≤ S512x512.size a
  h_S512x512 : 0 < S512x512.numel
  shapeCasts_S512x512_S512x512 : S512x512.ShapeCasts S512x512
  shapeCasts_S512x512_S512x16x32 : S512x512.ShapeCasts S512x16x32
  reduces_S512x16x32_S512x16 : S512x16x32.Reduces [2] S512x16
  shapeCasts_S512x16_S512x16x1 : S512x16.ShapeCasts S512x16x1
  broadcasts_S512x16x1_S512x16x32 : S512x16x1.Broadcasts S512x16x32
  shapeCasts_S512x16x32_S512x512 : S512x16x32.ShapeCasts S512x512
  shapeCasts_S512x512_S16x32x16x32 : S512x512.ShapeCasts S16x32x16x32
  reduces_S16x32x16x32_S16x32x16 : S16x32x16x32.Reduces [3] S16x32x16
  shapeCasts_S16x32x16_S16x32x16x1 : S16x32x16.ShapeCasts S16x32x16x1
  reduces_S16x32x16x1_S16x16x1 : S16x32x16x1.Reduces [1] S16x16x1
  shapeCasts_S16x16x1_S16x1x16x1 : S16x16x1.ShapeCasts S16x1x16x1
  broadcasts_S16x1x16x1_S16x32x16x32 : S16x1x16x1.Broadcasts S16x32x16x32
  shapeCasts_S16x32x16x32_S512x512 : S16x32x16x32.ShapeCasts S512x512
  bitsLt_bf16_f32 : FTy.bits .bf16 < FTy.bits .f32
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  dot_S512x512_S512x512_S512x512_1_0_0_1_n_n_wf : DotDims.WF S512x512 S512x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S4096x4096.size a
  hwx0_0 : ∀ i : grid0.Coords, EltTy.bits .f32 = 32 ∨ (Rect.block (s := S4096x4096) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S4096x4096.size a
  hwx0_1 : ∀ i : grid0.Coords, EltTy.bits .f32 = 32 ∨ (Rect.block (s := S4096x4096) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x4096.size a
  hwx0_2 : ∀ i : grid0.Coords, EltTy.bits .f32 = 32 ∨ (Rect.block (s := S1x4096) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S4096x4096.size a
  hwx0_3 : ∀ i : grid0.Coords, EltTy.bits .f32 = 32 ∨ (Rect.block (s := S4096x4096) S512x512.size (cc0_transform_3 i) (hinb0_3 i)).WholeWords (EltTy.packing .f32)

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S512x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4096x4096 : Shape := ⟨2, ![4096, 4096]⟩
abbrev S4096 : Shape := ⟨1, ![4096]⟩
abbrev S4096x1x128x32 : Shape := ⟨4, ![4096, 1, 128, 32]⟩
abbrev S_ : Shape := ⟨0, ![]⟩
abbrev S4096x128 : Shape := ⟨2, ![4096, 128]⟩
abbrev S4096x1x128x1 : Shape := ⟨4, ![4096, 1, 128, 1]⟩
abbrev S128x32x128x32 : Shape := ⟨4, ![128, 32, 128, 32]⟩
abbrev S128x128 : Shape := ⟨2, ![128, 128]⟩
abbrev S128x1x128x1 : Shape := ⟨4, ![128, 1, 128, 1]⟩
abbrev S1x4096 : Shape := ⟨2, ![1, 4096]⟩

abbrev nBuf : Space → Nat
  | .hbm => 64
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096, .f32⟩
  | .hbm, ⟨3, _⟩ => ⟨S4096x1x128x32, .f32⟩
  | .hbm, ⟨4, _⟩ => ⟨S4096x1x128x32, .f32⟩
  | .hbm, ⟨5, _⟩ => ⟨S_, .f32⟩
  | .hbm, ⟨6, _⟩ => ⟨S4096x128, .f32⟩
  | .hbm, ⟨7, _⟩ => ⟨S4096x1x128x1, .f32⟩
  | .hbm, ⟨8, _⟩ => ⟨S_, .f32⟩
  | .hbm, ⟨9, _⟩ => ⟨S4096x1x128x1, .f32⟩
  | .hbm, ⟨10, _⟩ => ⟨S4096x1x128x1, .i1⟩
  | .hbm, ⟨11, _⟩ => ⟨S_, .f32⟩
  | .hbm, ⟨12, _⟩ => ⟨S4096x1x128x1, .f32⟩
  | .hbm, ⟨13, _⟩ => ⟨S4096x1x128x1, .f32⟩
  | .hbm, ⟨14, _⟩ => ⟨S_, .f32⟩
  | .hbm, ⟨15, _⟩ => ⟨S4096x1x128x1, .f32⟩
  | .hbm, ⟨16, _⟩ => ⟨S4096x1x128x1, .f32⟩
  | .hbm, ⟨17, _⟩ => ⟨S4096x1x128x32, .f32⟩
  | .hbm, ⟨18, _⟩ => ⟨S4096x1x128x32, .f32⟩
  | .hbm, ⟨19, _⟩ => ⟨S4096x1x128x32, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S4096x1x128x32, .f32⟩
  | .hbm, ⟨24, _⟩ => ⟨S4096x1x128x32, .f32⟩
  | .hbm, ⟨25, _⟩ => ⟨S_, .f32⟩
  | .hbm, ⟨26, _⟩ => ⟨S4096x1x128x32, .f32⟩
  | .hbm, ⟨27, _⟩ => ⟨S4096x1x128x32, .f32⟩
  | .hbm, ⟨28, _⟩ => ⟨S4096x1x128x32, .f32⟩
  | .hbm, ⟨29, _⟩ => ⟨S4096x1x128x32, .f32⟩
  | .hbm, ⟨30, _⟩ => ⟨S4096x4096, .f32⟩
  | .hbm, ⟨31, _⟩ => ⟨S4096x4096, .f32⟩
  | .hbm, ⟨32, _⟩ => ⟨S128x32x128x32, .f32⟩
  | .hbm, ⟨33, _⟩ => ⟨S128x32x128x32, .f32⟩
  | .hbm, ⟨34, _⟩ => ⟨S_, .f32⟩
  | .hbm, ⟨35, _⟩ => ⟨S128x128, .f32⟩
  | .hbm, ⟨36, _⟩ => ⟨S128x1x128x1, .f32⟩
  | .hbm, ⟨37, _⟩ => ⟨S_, .f32⟩
  | .hbm, ⟨38, _⟩ => ⟨S128x1x128x1, .f32⟩
  | .hbm, ⟨39, _⟩ => ⟨S128x1x128x1, .i1⟩
  | .hbm, ⟨40, _⟩ => ⟨S_, .f32⟩
  | .hbm, ⟨41, _⟩ => ⟨S128x1x128x1, .f32⟩
  | .hbm, ⟨42, _⟩ => ⟨S128x1x128x1, .f32⟩
  | .hbm, ⟨43, _⟩ => ⟨S_, .f32⟩
  | .hbm, ⟨44, _⟩ => ⟨S128x1x128x1, .f32⟩
  | .hbm, ⟨45, _⟩ => ⟨S128x1x128x1, .f32⟩
  | .hbm, ⟨46, _⟩ => ⟨S128x32x128x32, .f32⟩
  | .hbm, ⟨47, _⟩ => ⟨S128x32x128x32, .f32⟩
  | .hbm, ⟨48, _⟩ => ⟨S128x32x128x32, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S128x32x128x32, .f32⟩
  | .hbm, ⟨53, _⟩ => ⟨S128x32x128x32, .f32⟩
  | .hbm, ⟨54, _⟩ => ⟨S_, .f32⟩
  | .hbm, ⟨55, _⟩ => ⟨S128x32x128x32, .f32⟩
  | .hbm, ⟨56, _⟩ => ⟨S128x32x128x32, .f32⟩
  | .hbm, ⟨57, _⟩ => ⟨S128x32x128x32, .f32⟩
  | .hbm, ⟨58, _⟩ => ⟨S128x32x128x32, .f32⟩
  | .hbm, ⟨59, _⟩ => ⟨S4096x4096, .f32⟩
  | .hbm, ⟨60, _⟩ => ⟨S4096x4096, .f32⟩
  | .hbm, ⟨61, _⟩ => ⟨S1x4096, .f32⟩
  | .hbm, ⟨62, _⟩ => ⟨S4096x4096, .f32⟩
  | .hbm, ⟨63, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_cst_4 : Ref sig .tc := ⟨.hbm, 21, rfl⟩
abbrev main_call2_v0 : Ref sig .tc := ⟨.hbm, 22, rfl⟩
abbrev main_call2_v1 : Ref sig .tc := ⟨.hbm, 23, rfl⟩
abbrev main_call2_v2 : Ref sig .tc := ⟨.hbm, 24, rfl⟩
abbrev main_call2_v3 : Ref sig .tc := ⟨.hbm, 25, rfl⟩
abbrev main_call2_v4 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_5 : Ref sig .tc := ⟨.hbm, 34, rfl⟩
abbrev main_v20 : Ref sig .tc := ⟨.hbm, 35, rfl⟩
abbrev main_v21 : Ref sig .tc := ⟨.hbm, 36, rfl⟩
abbrev main_cst_6 : Ref sig .tc := ⟨.hbm, 37, rfl⟩
abbrev main_v22 : Ref sig .tc := ⟨.hbm, 38, rfl⟩
abbrev main_v23 : Ref sig .tc := ⟨.hbm, 39, rfl⟩
abbrev main_cst_7 : Ref sig .tc := ⟨.hbm, 40, rfl⟩
abbrev main_v24 : Ref sig .tc := ⟨.hbm, 41, rfl⟩
abbrev main_v25 : Ref sig .tc := ⟨.hbm, 42, rfl⟩
abbrev main_cst_8 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_9 : Ref sig .tc := ⟨.hbm, 49, rfl⟩
abbrev main_cst_10 : Ref sig .tc := ⟨.hbm, 50, rfl⟩
abbrev main_call5_v0 : Ref sig .tc := ⟨.hbm, 51, rfl⟩
abbrev main_call5_v1 : Ref sig .tc := ⟨.hbm, 52, rfl⟩
abbrev main_call5_v2 : Ref sig .tc := ⟨.hbm, 53, rfl⟩
abbrev main_call5_v3 : Ref sig .tc := ⟨.hbm, 54, rfl⟩
abbrev main_call5_v4 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩

abbrev nD : Nat := 1
abbrev τ : Topo := Topo.v7x

variable {F : FTy → Type} [FloatOps F]

class Facts₀ : Prop where
  shapeCasts_S4096x4096_S4096x1x128x32 : S4096x4096.ShapeCasts S4096x1x128x32
  reducesTo_S4096x1x128x32_S4096x128_d1_3 : S4096x1x128x32.ReducesTo [1, 3] S4096x128
  h_S_ : 0 < S_.numel
  bcast_S4096x128_S4096x1x128x1_0_2 : S4096x128.BroadcastsInDim S4096x1x128x1 (![0, 2] : Fin 2 → Fin S4096x1x128x1.rank)
  bcast_S_S4096x1x128x1 : S_.BroadcastsInDim S4096x1x128x1 (![] : Fin 0 → Fin S4096x1x128x1.rank)
  bcast_S4096x1x128x1_S4096x1x128x32_0_1_2_3 : S4096x1x128x1.BroadcastsInDim S4096x1x128x32 (![0, 1, 2, 3] : Fin 4 → Fin S4096x1x128x32.rank)
  bcast_S_S4096x1x128x32 : S_.BroadcastsInDim S4096x1x128x32 (![] : Fin 0 → Fin S4096x1x128x32.rank)
  shapeCasts_S4096x1x128x32_S4096x4096 : S4096x1x128x32.ShapeCasts S4096x4096
  transposes_S4096x4096_S4096x4096_1_0 : S4096x4096.Transposes [1, 0] S4096x4096
  shapeCasts_S4096x4096_S128x32x128x32 : S4096x4096.ShapeCasts S128x32x128x32
  reducesTo_S128x32x128x32_S128x128_d1_3 : S128x32x128x32.ReducesTo [1, 3] S128x128
  bcast_S128x128_S128x1x128x1_0_2 : S128x128.BroadcastsInDim S128x1x128x1 (![0, 2] : Fin 2 → Fin S128x1x128x1.rank)
  bcast_S_S128x1x128x1 : S_.BroadcastsInDim S128x1x128x1 (![] : Fin 0 → Fin S128x1x128x1.rank)
  bcast_S128x1x128x1_S128x32x128x32_0_1_2_3 : S128x1x128x1.BroadcastsInDim S128x32x128x32 (![0, 1, 2, 3] : Fin 4 → Fin S128x32x128x32.rank)
  bcast_S_S128x32x128x32 : S_.BroadcastsInDim S128x32x128x32 (![] : Fin 0 → Fin S128x32x128x32.rank)
  shapeCasts_S128x32x128x32_S4096x4096 : S128x32x128x32.ShapeCasts S4096x4096
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  dot_S4096x4096_S4096x4096_S4096x4096_1_0_0_1_n_n_wf : DotDims.WF S4096x4096 S4096x4096 S4096x4096 [1] [0] [0] [1] [] []

variable [Facts₀]

def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf

class Facts : Prop extends Facts₀ where

variable [Facts]
-- ==== Proof.RefRun.lean ====
/-
  The reference program's @main as a straight line of 61 host operations, and its run.

  The reference computes, from x : [4096, 4096], weight : [4096, 4096] and bias : [4096]: the left operand x quantized per row
  over groups of 32 columns (the group's largest absolute value m, or 1 when m = 0, gives the scale 127 / m; an entry v becomes
  clip (round (v · scale)) (−127) 127 divided by the scale); the transpose of weight quantized the same way over 32 × 32 blocks;
  the product of the two; plus bias along the rows. `ops` lists those operations in program order, `main_eq` says @main is
  that line, and `run` says that every weakly fair execution terminates with the result buffer at the operations' composed
  term of the arguments' launch contents (`res_main_v38`) and the arguments unchanged.
-/
import proofs.«101226_j7533372638057_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 61 operations, in order. The operations of the three outlined functions — a select, a rounding to the nearest integer with ties to even, and a maximum followed by a minimum, each called once per operand — stand in their calls' places, on the buffers the calls name. -/
abbrev ops : List (HloOp τ sig (Elt F)) :=
  [ reshape main_arg0 main_v0 rfl shapeCasts_S4096x4096_S4096x1x128x32,
    unary main_v0 main_v1 (Host.absf : (⟨S4096x1x128x32, .f32⟩ : BufTy).Contents (Elt F) → (⟨S4096x1x128x32, .f32⟩ : BufTy).Contents (Elt F)),
    nullary main_cst (constant S_ .f32 0xFF800000#32),
    binary main_v1 main_cst main_v2 ((fun x v => Host.reduce FloatOps.maximumf x v reducesTo_S4096x1x128x32_S4096x128_d1_3 h_S_) : (⟨S4096x1x128x32, .f32⟩ : BufTy).Contents (Elt F) → (⟨S_, .f32⟩ : BufTy).Contents (Elt F) → (⟨S4096x128, .f32⟩ : BufTy).Contents (Elt F)),
    unary main_v2 main_v3 (broadcastInDim S4096x1x128x1 ![0, 2] bcast_S4096x128_S4096x1x128x1_0_2 : (⟨S4096x128, .f32⟩ : BufTy).Contents (Elt F) → (⟨S4096x1x128x1, .f32⟩ : BufTy).Contents (Elt F)),
    nullary main_cst_0 (constant S_ .f32 0x00000000#32),
    unary main_cst_0 main_v4 (broadcastInDim S4096x1x128x1 ![] bcast_S_S4096x1x128x1 : (⟨S_, .f32⟩ : BufTy).Contents (Elt F) → (⟨S4096x1x128x1, .f32⟩ : BufTy).Contents (Elt F)),
    binary main_v3 main_v4 main_v5 (cmpf .oeq : (⟨S4096x1x128x1, .f32⟩ : BufTy).Contents (Elt F) → (⟨S4096x1x128x1, .f32⟩ : BufTy).Contents (Elt F) → (⟨S4096x1x128x1, .i1⟩ : BufTy).Contents (Elt F)),
    nullary main_cst_1 (constant S_ .f32 0x3F800000#32),
    unary main_cst_1 main_v6 (broadcastInDim S4096x1x128x1 ![] bcast_S_S4096x1x128x1 : (⟨S_, .f32⟩ : BufTy).Contents (Elt F) → (⟨S4096x1x128x1, .f32⟩ : BufTy).Contents (Elt F)),
    ternary main_v5 main_v6 main_v3 main_v7 (select : (⟨S4096x1x128x1, .i1⟩ : BufTy).Contents (Elt F) → (⟨S4096x1x128x1, .f32⟩ : BufTy).Contents (Elt F) → (⟨S4096x1x128x1, .f32⟩ : BufTy).Contents (Elt F) → (⟨S4096x1x128x1, .f32⟩ : BufTy).Contents (Elt F)),
    nullary main_cst_2 (constant S_ .f32 0x42FE0000#32),
    unary main_cst_2 main_v8 (broadcastInDim S4096x1x128x1 ![] bcast_S_S4096x1x128x1 : (⟨S_, .f32⟩ : BufTy).Contents (Elt F) → (⟨S4096x1x128x1, .f32⟩ : BufTy).Contents (Elt F)),
    binary main_v8 main_v7 main_v9 (Host.divf : (⟨S4096x1x128x1, .f32⟩ : BufTy).Contents (Elt F) → (⟨S4096x1x128x1, .f32⟩ : BufTy).Contents (Elt F) → (⟨S4096x1x128x1, .f32⟩ : BufTy).Contents (Elt F)),
    unary main_v9 main_v10 (broadcastInDim S4096x1x128x32 ![0, 1, 2, 3] bcast_S4096x1x128x1_S4096x1x128x32_0_1_2_3 : (⟨S4096x1x128x1, .f32⟩ : BufTy).Contents (Elt F) → (⟨S4096x1x128x32, .f32⟩ : BufTy).Contents (Elt F)),
    binary main_v0 main_v10 main_v11 (mulf : (⟨S4096x1x128x32, .f32⟩ : BufTy).Contents (Elt F) → (⟨S4096x1x128x32, .f32⟩ : BufTy).Contents (Elt F) → (⟨S4096x1x128x32, .f32⟩ : BufTy).Contents (Elt F)),
    unary main_v11 main_v12 (Host.roundeven : (⟨S4096x1x128x32, .f32⟩ : BufTy).Contents (Elt F) → (⟨S4096x1x128x32, .f32⟩ : BufTy).Contents (Elt F)),
    nullary main_cst_3 (constant S_ .f32 0xC2FE0000#32),
    nullary main_cst_4 (constant S_ .f32 0x42FE0000#32),
    unary main_cst_3 main_call2_v0 (id : (⟨S_, .f32⟩ : BufTy).Contents (Elt F) → (⟨S_, .f32⟩ : BufTy).Contents (Elt F)),
    unary main_call2_v0 main_call2_v1 ((broadcastInDim S4096x1x128x32 ![] bcast_S_S4096x1x128x32) : (⟨S_, .f32⟩ : BufTy).Contents (Elt F) → (⟨S4096x1x128x32, .f32⟩ : BufTy).Contents (Elt F)),
    binary main_call2_v1 main_v12 main_call2_v2 (maximumf : (⟨S4096x1x128x32, .f32⟩ : BufTy).Contents (Elt F) → (⟨S4096x1x128x32, .f32⟩ : BufTy).Contents (Elt F) → (⟨S4096x1x128x32, .f32⟩ : BufTy).Contents (Elt F)),
    unary main_cst_4 main_call2_v3 (id : (⟨S_, .f32⟩ : BufTy).Contents (Elt F) → (⟨S_, .f32⟩ : BufTy).Contents (Elt F)),
    unary main_call2_v3 main_call2_v4 ((broadcastInDim S4096x1x128x32 ![] bcast_S_S4096x1x128x32) : (⟨S_, .f32⟩ : BufTy).Contents (Elt F) → (⟨S4096x1x128x32, .f32⟩ : BufTy).Contents (Elt F)),
    binary main_call2_v4 main_call2_v2 main_v13 (minimumf : (⟨S4096x1x128x32, .f32⟩ : BufTy).Contents (Elt F) → (⟨S4096x1x128x32, .f32⟩ : BufTy).Contents (Elt F) → (⟨S4096x1x128x32, .f32⟩ : BufTy).Contents (Elt F)),
    unary main_v9 main_v14 (broadcastInDim S4096x1x128x32 ![0, 1, 2, 3] bcast_S4096x1x128x1_S4096x1x128x32_0_1_2_3 : (⟨S4096x1x128x1, .f32⟩ : BufTy).Contents (Elt F) → (⟨S4096x1x128x32, .f32⟩ : BufTy).Contents (Elt F)),
    binary main_v13 main_v14 main_v15 (Host.divf : (⟨S4096x1x128x32, .f32⟩ : BufTy).Contents (Elt F) → (⟨S4096x1x128x32, .f32⟩ : BufTy).Contents (Elt F) → (⟨S4096x1x128x32, .f32⟩ : BufTy).Contents (Elt F)),
    reshape main_v15 main_v16 rfl shapeCasts_S4096x1x128x32_S4096x4096,
    unary main_arg1 main_v17 ((transpose S4096x4096 [1, 0] · transposes_S4096x4096_S4096x4096_1_0) : (⟨S4096x4096, .f32⟩ : BufTy).Contents (Elt F) → (⟨S4096x4096, .f32⟩ : BufTy).Contents (Elt F)),
    reshape main_v17 main_v18 rfl shapeCasts_S4096x4096_S128x32x128x32,
    unary main_v18 main_v19 (Host.absf : (⟨S128x32x128x32, .f32⟩ : BufTy).Contents (Elt F) → (⟨S128x32x128x32, .f32⟩ : BufTy).Contents (Elt F)),
    nullary main_cst_5 (constant S_ .f32 0xFF800000#32),
    binary main_v19 main_cst_5 main_v20 ((fun x v => Host.reduce FloatOps.maximumf x v reducesTo_S128x32x128x32_S128x128_d1_3 h_S_) : (⟨S128x32x128x32, .f32⟩ : BufTy).Contents (Elt F) → (⟨S_, .f32⟩ : BufTy).Contents (Elt F) → (⟨S128x128, .f32⟩ : BufTy).Contents (Elt F)),
    unary main_v20 main_v21 (broadcastInDim S128x1x128x1 ![0, 2] bcast_S128x128_S128x1x128x1_0_2 : (⟨S128x128, .f32⟩ : BufTy).Contents (Elt F) → (⟨S128x1x128x1, .f32⟩ : BufTy).Contents (Elt F)),
    nullary main_cst_6 (constant S_ .f32 0x00000000#32),
    unary main_cst_6 main_v22 (broadcastInDim S128x1x128x1 ![] bcast_S_S128x1x128x1 : (⟨S_, .f32⟩ : BufTy).Contents (Elt F) → (⟨S128x1x128x1, .f32⟩ : BufTy).Contents (Elt F)),
    binary main_v21 main_v22 main_v23 (cmpf .oeq : (⟨S128x1x128x1, .f32⟩ : BufTy).Contents (Elt F) → (⟨S128x1x128x1, .f32⟩ : BufTy).Contents (Elt F) → (⟨S128x1x128x1, .i1⟩ : BufTy).Contents (Elt F)),
    nullary main_cst_7 (constant S_ .f32 0x3F800000#32),
    unary main_cst_7 main_v24 (broadcastInDim S128x1x128x1 ![] bcast_S_S128x1x128x1 : (⟨S_, .f32⟩ : BufTy).Contents (Elt F) → (⟨S128x1x128x1, .f32⟩ : BufTy).Contents (Elt F)),
    ternary main_v23 main_v24 main_v21 main_v25 (select : (⟨S128x1x128x1, .i1⟩ : BufTy).Contents (Elt F) → (⟨S128x1x128x1, .f32⟩ : BufTy).Contents (Elt F) → (⟨S128x1x128x1, .f32⟩ : BufTy).Contents (Elt F) → (⟨S128x1x128x1, .f32⟩ : BufTy).Contents (Elt F)),
    nullary main_cst_8 (constant S_ .f32 0x42FE0000#32),
    unary main_cst_8 main_v26 (broadcastInDim S128x1x128x1 ![] bcast_S_S128x1x128x1 : (⟨S_, .f32⟩ : BufTy).Contents (Elt F) → (⟨S128x1x128x1, .f32⟩ : BufTy).Contents (Elt F)),
    binary main_v26 main_v25 main_v27 (Host.divf : (⟨S128x1x128x1, .f32⟩ : BufTy).Contents (Elt F) → (⟨S128x1x128x1, .f32⟩ : BufTy).Contents (Elt F) → (⟨S128x1x128x1, .f32⟩ : BufTy).Contents (Elt F)),
    unary main_v27 main_v28 (broadcastInDim S128x32x128x32 ![0, 1, 2, 3] bcast_S128x1x128x1_S128x32x128x32_0_1_2_3 : (⟨S128x1x128x1, .f32⟩ : BufTy).Contents (Elt F) → (⟨S128x32x128x32, .f32⟩ : BufTy).Contents (Elt F)),
    binary main_v18 main_v28 main_v29 (mulf : (⟨S128x32x128x32, .f32⟩ : BufTy).Contents (Elt F) → (⟨S128x32x128x32, .f32⟩ : BufTy).Contents (Elt F) → (⟨S128x32x128x32, .f32⟩ : BufTy).Contents (Elt F)),
    unary main_v29 main_v30 (Host.roundeven : (⟨S128x32x128x32, .f32⟩ : BufTy).Contents (Elt F) → (⟨S128x32x128x32, .f32⟩ : BufTy).Contents (Elt F)),
    nullary main_cst_9 (constant S_ .f32 0xC2FE0000#32),
    nullary main_cst_10 (constant S_ .f32 0x42FE0000#32),
    unary main_cst_9 main_call5_v0 (id : (⟨S_, .f32⟩ : BufTy).Contents (Elt F) → (⟨S_, .f32⟩ : BufTy).Contents (Elt F)),
    unary main_call5_v0 main_call5_v1 ((broadcastInDim S128x32x128x32 ![] bcast_S_S128x32x128x32) : (⟨S_, .f32⟩ : BufTy).Contents (Elt F) → (⟨S128x32x128x32, .f32⟩ : BufTy).Contents (Elt F)),
    binary main_call5_v1 main_v30 main_call5_v2 (maximumf : (⟨S128x32x128x32, .f32⟩ : BufTy).Contents (Elt F) → (⟨S128x32x128x32, .f32⟩ : BufTy).Contents (Elt F) → (⟨S128x32x128x32, .f32⟩ : BufTy).Contents (Elt F)),
    unary main_cst_10 main_call5_v3 (id : (⟨S_, .f32⟩ : BufTy).Contents (Elt F) → (⟨S_, .f32⟩ : BufTy).Contents (Elt F)),
    unary main_call5_v3 main_call5_v4 ((broadcastInDim S128x32x128x32 ![] bcast_S_S128x32x128x32) : (⟨S_, .f32⟩ : BufTy).Contents (Elt F) → (⟨S128x32x128x32, .f32⟩ : BufTy).Contents (Elt F)),
    binary main_call5_v4 main_call5_v2 main_v31 (minimumf : (⟨S128x32x128x32, .f32⟩ : BufTy).Contents (Elt F) → (⟨S128x32x128x32, .f32⟩ : BufTy).Contents (Elt F) → (⟨S128x32x128x32, .f32⟩ : BufTy).Contents (Elt F)),
    unary main_v27 main_v32 (broadcastInDim S128x32x128x32 ![0, 1, 2, 3] bcast_S128x1x128x1_S128x32x128x32_0_1_2_3 : (⟨S128x1x128x1, .f32⟩ : BufTy).Contents (Elt F) → (⟨S128x32x128x32, .f32⟩ : BufTy).Contents (Elt F)),
    binary main_v31 main_v32 main_v33 (Host.divf : (⟨S128x32x128x32, .f32⟩ : BufTy).Contents (Elt F) → (⟨S128x32x128x32, .f32⟩ : BufTy).Contents (Elt F) → (⟨S128x32x128x32, .f32⟩ : BufTy).Contents (Elt F)),
    reshape main_v33 main_v34 rfl shapeCasts_S128x32x128x32_S4096x4096,
    binary main_v16 main_v34 main_v35 ((fun l r => Host.dotGeneral dot_S4096x4096_S4096x4096_S4096x4096_1_0_0_1_n_n none l r) : (⟨S4096x4096, .f32⟩ : BufTy).Contents (Elt F) → (⟨S4096x4096, .f32⟩ : BufTy).Contents (Elt F) → (⟨S4096x4096, .f32⟩ : BufTy).Contents (Elt F)),
    unary main_arg2 main_v36 (broadcastInDim S1x4096 ![1] bcast_S4096_S1x4096_1 : (⟨S4096, .f32⟩ : BufTy).Contents (Elt F) → (⟨S1x4096, .f32⟩ : BufTy).Contents (Elt F)),
    unary main_v36 main_v37 (broadcastInDim S4096x4096 ![0, 1] bcast_S1x4096_S4096x4096_0_1 : (⟨S1x4096, .f32⟩ : BufTy).Contents (Elt F) → (⟨S4096x4096, .f32⟩ : BufTy).Contents (Elt F)),
    binary main_v35 main_v37 main_v38 (addf : (⟨S4096x4096, .f32⟩ : BufTy).Contents (Elt F) → (⟨S4096x4096, .f32⟩ : BufTy).Contents (Elt F) → (⟨S4096x4096, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨reshape_bufs_sub .., unary_bufs_sub .., nullary_bufs_sub .., binary_bufs_sub .., unary_bufs_sub .., nullary_bufs_sub .., unary_bufs_sub .., binary_bufs_sub .., nullary_bufs_sub .., unary_bufs_sub .., ternary_bufs_sub .., nullary_bufs_sub .., unary_bufs_sub .., binary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., binary_bufs_sub .., reshape_bufs_sub .., unary_bufs_sub .., reshape_bufs_sub .., unary_bufs_sub .., nullary_bufs_sub .., binary_bufs_sub .., unary_bufs_sub .., nullary_bufs_sub .., unary_bufs_sub .., binary_bufs_sub .., nullary_bufs_sub .., unary_bufs_sub .., ternary_bufs_sub .., nullary_bufs_sub .., unary_bufs_sub .., binary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., binary_bufs_sub .., reshape_bufs_sub .., binary_bufs_sub .., unary_bufs_sub .., unary_bufs_sub .., binary_bufs_sub ..⟩

set_option maxRecDepth 8192 in
/-- THE RESULT ARRAY AS ONE TERM of the three arguments' launch contents: the operations composed — the product of the two quantized
    operands, plus the bias broadcast along the rows. -/
def res_main_v38 (m : (ℓ : Loc nD τ sig) → Buf (Elt F) ℓ) (c : Dev nD) : Buf (Elt F) ((c.tc : Thread nD τ).loc main_v38) :=
  addf (Host.dotGeneral dot_S4096x4096_S4096x4096_S4096x4096_1_0_0_1_n_n none (shapeCast _ (Host.divf (minimumf (broadcastInDim S4096x1x128x32 ![] bcast_S_S4096x1x128x32 (id (constant S_ .f32 0x42FE0000#32))) (maximumf (broadcastInDim S4096x1x128x32 ![] bcast_S_S4096x1x128x32 (id (constant S_ .f32 0xC2FE0000#32))) (Host.roundeven (mulf (shapeCast _ (m ((c.tc : Thread nD τ).loc main_arg0)) shapeCasts_S4096x4096_S4096x1x128x32) (broadcastInDim S4096x1x128x32 ![0, 1, 2, 3] bcast_S4096x1x128x1_S4096x1x128x32_0_1_2_3 (Host.divf (broadcastInDim S4096x1x128x1 ![] bcast_S_S4096x1x128x1 (constant S_ .f32 0x42FE0000#32)) (select (cmpf .oeq (broadcastInDim S4096x1x128x1 ![0, 2] bcast_S4096x128_S4096x1x128x1_0_2 (Host.reduce FloatOps.maximumf (Host.absf (shapeCast _ (m ((c.tc : Thread nD τ).loc main_arg0)) shapeCasts_S4096x4096_S4096x1x128x32)) (constant S_ .f32 0xFF800000#32) reducesTo_S4096x1x128x32_S4096x128_d1_3 h_S_)) (broadcastInDim S4096x1x128x1 ![] bcast_S_S4096x1x128x1 (constant S_ .f32 0x00000000#32))) (broadcastInDim S4096x1x128x1 ![] bcast_S_S4096x1x128x1 (constant S_ .f32 0x3F800000#32)) (broadcastInDim S4096x1x128x1 ![0, 2] bcast_S4096x128_S4096x1x128x1_0_2 (Host.reduce FloatOps.maximumf (Host.absf (shapeCast _ (m ((c.tc : Thread nD τ).loc main_arg0)) shapeCasts_S4096x4096_S4096x1x128x32)) (constant S_ .f32 0xFF800000#32) reducesTo_S4096x1x128x32_S4096x128_d1_3 h_S_))))))))) (broadcastInDim S4096x1x128x32 ![0, 1, 2, 3] bcast_S4096x1x128x1_S4096x1x128x32_0_1_2_3 (Host.divf (broadcastInDim S4096x1x128x1 ![] bcast_S_S4096x1x128x1 (constant S_ .f32 0x42FE0000#32)) (select (cmpf .oeq (broadcastInDim S4096x1x128x1 ![0, 2] bcast_S4096x128_S4096x1x128x1_0_2 (Host.reduce FloatOps.maximumf (Host.absf (shapeCast _ (m ((c.tc : Thread nD τ).loc main_arg0)) shapeCasts_S4096x4096_S4096x1x128x32)) (constant S_ .f32 0xFF800000#32) reducesTo_S4096x1x128x32_S4096x128_d1_3 h_S_)) (broadcastInDim S4096x1x128x1 ![] bcast_S_S4096x1x128x1 (constant S_ .f32 0x00000000#32))) (broadcastInDim S4096x1x128x1 ![] bcast_S_S4096x1x128x1 (constant S_ .f32 0x3F800000#32)) (broadcastInDim S4096x1x128x1 ![0, 2] bcast_S4096x128_S4096x1x128x1_0_2 (Host.reduce FloatOps.maximumf (Host.absf (shapeCast _ (m ((c.tc : Thread nD τ).loc main_arg0)) shapeCasts_S4096x4096_S4096x1x128x32)) (constant S_ .f32 0xFF800000#32) reducesTo_S4096x1x128x32_S4096x128_d1_3 h_S_)))))) shapeCasts_S4096x1x128x32_S4096x4096) (shapeCast _ (Host.divf (minimumf (broadcastInDim S128x32x128x32 ![] bcast_S_S128x32x128x32 (id (constant S_ .f32 0x42FE0000#32))) (maximumf (broadcastInDim S128x32x128x32 ![] bcast_S_S128x32x128x32 (id (constant S_ .f32 0xC2FE0000#32))) (Host.roundeven (mulf (shapeCast _ (transpose S4096x4096 [1, 0] (m ((c.tc : Thread nD τ).loc main_arg1)) transposes_S4096x4096_S4096x4096_1_0) shapeCasts_S4096x4096_S128x32x128x32) (broadcastInDim S128x32x128x32 ![0, 1, 2, 3] bcast_S128x1x128x1_S128x32x128x32_0_1_2_3 (Host.divf (broadcastInDim S128x1x128x1 ![] bcast_S_S128x1x128x1 (constant S_ .f32 0x42FE0000#32)) (select (cmpf .oeq (broadcastInDim S128x1x128x1 ![0, 2] bcast_S128x128_S128x1x128x1_0_2 (Host.reduce FloatOps.maximumf (Host.absf (shapeCast _ (transpose S4096x4096 [1, 0] (m ((c.tc : Thread nD τ).loc main_arg1)) transposes_S4096x4096_S4096x4096_1_0) shapeCasts_S4096x4096_S128x32x128x32)) (constant S_ .f32 0xFF800000#32) reducesTo_S128x32x128x32_S128x128_d1_3 h_S_)) (broadcastInDim S128x1x128x1 ![] bcast_S_S128x1x128x1 (constant S_ .f32 0x00000000#32))) (broadcastInDim S128x1x128x1 ![] bcast_S_S128x1x128x1 (constant S_ .f32 0x3F800000#32)) (broadcastInDim S128x1x128x1 ![0, 2] bcast_S128x128_S128x1x128x1_0_2 (Host.reduce FloatOps.maximumf (Host.absf (shapeCast _ (transpose S4096x4096 [1, 0] (m ((c.tc : Thread nD τ).loc main_arg1)) transposes_S4096x4096_S4096x4096_1_0) shapeCasts_S4096x4096_S128x32x128x32)) (constant S_ .f32 0xFF800000#32) reducesTo_S128x32x128x32_S128x128_d1_3 h_S_))))))))) (broadcastInDim S128x32x128x32 ![0, 1, 2, 3] bcast_S128x1x128x1_S128x32x128x32_0_1_2_3 (Host.divf (broadcastInDim S128x1x128x1 ![] bcast_S_S128x1x128x1 (constant S_ .f32 0x42FE0000#32)) (select (cmpf .oeq (broadcastInDim S128x1x128x1 ![0, 2] bcast_S128x128_S128x1x128x1_0_2 (Host.reduce FloatOps.maximumf (Host.absf (shapeCast _ (transpose S4096x4096 [1, 0] (m ((c.tc : Thread nD τ).loc main_arg1)) transposes_S4096x4096_S4096x4096_1_0) shapeCasts_S4096x4096_S128x32x128x32)) (constant S_ .f32 0xFF800000#32) reducesTo_S128x32x128x32_S128x128_d1_3 h_S_)) (broadcastInDim S128x1x128x1 ![] bcast_S_S128x1x128x1 (constant S_ .f32 0x00000000#32))) (broadcastInDim S128x1x128x1 ![] bcast_S_S128x1x128x1 (constant S_ .f32 0x3F800000#32)) (broadcastInDim S128x1x128x1 ![0, 2] bcast_S128x128_S128x1x128x1_0_2 (Host.reduce FloatOps.maximumf (Host.absf (shapeCast _ (transpose S4096x4096 [1, 0] (m ((c.tc : Thread nD τ).loc main_arg1)) transposes_S4096x4096_S4096x4096_1_0) shapeCasts_S4096x4096_S128x32x128x32)) (constant S_ .f32 0xFF800000#32) reducesTo_S128x32x128x32_S128x128_d1_3 h_S_)))))) shapeCasts_S128x32x128x32_S4096x4096)) (broadcastInDim S4096x4096 ![0, 1] bcast_S1x4096_S4096x4096_0_1 (broadcastInDim S1x4096 ![1] bcast_S4096_S1x4096_1 (m ((c.tc : Thread nD τ).loc main_arg2))))

set_option maxRecDepth 8192 in
set_option maxHeartbeats 24400000 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v38) = res_main_v38 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v38).trans (by after_results_simp <;> rfl <;> (unfold res_main_v38; rfl)),
      (h c main_arg0).trans (by after_results_simp <;> rfl),
      (h c main_arg1).trans (by after_results_simp <;> rfl),
      (h c main_arg2).trans (by after_results_simp <;> rfl)⟩)
    (run_seq scopedRefs_eq scopedSems_eq defs main (fun _ => ops) main_eq (fun _ => ops_sub) m ρ)

end Cert.ReferenceIdeal.RefRun

end
-- ==== Proof.QuantSpec.lean ====
/-
  Block fake-quantization followed by a matrix product and a bias, over the extended reals.

  An entry `v` of a block whose largest absolute value is `mx` is quantized with the scale `s = 127 / mx'` — `mx'` is `mx`, or
  `1` when `mx = 0` — to `clip (round (v · s)) (−127) 127` (round half to even) and read back as that integer divided by `s`.
  The left operand `x[r, K]` is quantized over blocks of one row by 32 consecutive columns; the right operand `w[K, n]` over
  blocks of 32 consecutive rows by 32 consecutive columns; the result is `∑ K, xq[r, K] · wq[K, n] + b[n]` over `K < 4096`.

  Arrays are total functions of natural-number coordinates here, so that a tile of an array — the array read at an offset —
  needs no bound on its coordinates: a quantization block of a tile whose column (and row) offset is a multiple of 32 is a
  quantization block of the array. The sum over `K < 4096` is the sum over eight consecutive runs of 512, and the running
  sums `part` of those runs are what an accumulation over the runs holds after each.
-/
import Idealize.ShloMosaic.PureOps.Ideal
import Idealize.ShloMosaic.PureOps.Ideal.Laws
import Idealize.ShloMosaic.Lib.ValueIdx

noncomputable section

namespace QuantDot

open Idealize.ShloMosaic Idealize.ShloMosaic.ValueIdx

/-- The value every maximum starts from: −∞. -/
def negInf : EReal := Ideal.ofBits .f32 0xFF800000#32

/-- The absolute value. -/
def absE (v : EReal) : EReal := max v (-v)

/-- A block's largest absolute value, with 1 in place of 0. -/
def guard (mx : EReal) : EReal :=
  Scalar.select (Ideal.cmp .oeq mx (Ideal.ofBits .f32 0x00000000#32)) (Ideal.ofBits .f32 0x3F800000#32) mx

/-- The quantization scale of a block: 127 over its guarded largest absolute value. -/
def scaleOf (mx : EReal) : EReal := Ideal.div (Ideal.ofBits .f32 0x42FE0000#32) (guard mx)

/-- Quantize `v` with the scale `s` and read it back: round half to even, clip to [−127, 127], divide by `s`. -/
def qdq (s v : EReal) : EReal :=
  Ideal.div (min (Ideal.ofBits .f32 0x42FE0000#32)
    (max (Ideal.ofBits .f32 0xC2FE0000#32) (Ideal.liftRound Ideal.roundHalfEven (v * s)))) s

/-- The largest absolute value among the 32 entries of row `r` in the column group of `K`. -/
def rowMax (x : ℕ → ℕ → EReal) (r K : ℕ) : EReal :=
  Finset.univ.fold max negInf fun l : Fin 32 => absE (x r (32 * (K / 32) + l.val))

/-- The largest absolute value among the 32 × 32 entries of the block of `(K, n)`. -/
def blkMax (w : ℕ → ℕ → EReal) (K n : ℕ) : EReal :=
  Finset.univ.fold max negInf fun u : Fin 32 =>
    Finset.univ.fold max negInf fun v : Fin 32 => absE (w (32 * (K / 32) + u.val) (32 * (n / 32) + v.val))

/-- The left operand, quantized by rows of 32 and read back. -/
def xq (x : ℕ → ℕ → EReal) (r K : ℕ) : EReal := qdq (scaleOf (rowMax x r K)) (x r K)

/-- The right operand, quantized by 32 × 32 blocks and read back. -/
def wq (w : ℕ → ℕ → EReal) (K n : ℕ) : EReal := qdq (scaleOf (blkMax w K n)) (w K n)

/-- One run of 512 of the contraction: `K` from `512·k` to `512·k + 511`. -/
def run (x w : ℕ → ℕ → EReal) (r n k : ℕ) : EReal :=
  ∑ kk : Fin 512, xq x r (512 * k + kk.val) * wq w (512 * k + kk.val) n

/-- The whole contraction. -/
def dot (x w : ℕ → ℕ → EReal) (r n : ℕ) : EReal := ∑ K : Fin 4096, xq x r K.val * wq w K.val n

/-- The result: the product of the quantized operands plus the bias. -/
def out (x w : ℕ → ℕ → EReal) (b : ℕ → EReal) (r n : ℕ) : EReal := dot x w r n + b n

/-- The running sum of the runs `0 … k`. -/
def part (x w : ℕ → ℕ → EReal) (r n k : ℕ) : EReal := ∑ k' ∈ Finset.range (k + 1), run x w r n k'

theorem part_zero (x w : ℕ → ℕ → EReal) (r n : ℕ) : part x w r n 0 = 0 + run x w r n 0 := by
  unfold part; rw [Finset.sum_range_one, zero_add]

theorem part_succ (x w : ℕ → ℕ → EReal) (r n k : ℕ) : part x w r n (k + 1) = part x w r n k + run x w r n (k + 1) := by
  unfold part; rw [Finset.sum_range_succ]

/-- The sum over `K < 4096` is the sum of the eight runs of 512. -/
theorem sum_runs (f : ℕ → EReal) : ∑ K : Fin 4096, f K.val = ∑ k ∈ Finset.range 8, ∑ kk : Fin 512, f (512 * k + kk.val) := by
  rw [Finset.sum_range (fun k => ∑ kk : Fin 512, f (512 * k + kk.val))]
  rw [← Equiv.sum_comp (finProdFinEquiv (m := 8) (n := 512)) (fun K : Fin 4096 => f K.val), Fintype.sum_prod_type]
  refine Finset.sum_congr rfl fun k _ => Finset.sum_congr rfl fun kk _ => ?_
  congr 1
  show kk.val + 512 * k.val = 512 * k.val + kk.val
  omega

/-- After the eighth run the running sum is the whole contraction. -/
theorem part_seven (x w : ℕ → ℕ → EReal) (r n : ℕ) : part x w r n 7 = dot x w r n := by
  unfold part dot run
  exact (sum_runs fun K => xq x r K * wq w K n).symm

/-! ## Arrays of literal extents as total functions -/

/-- A rank-2 array as a total function of two natural-number coordinates (0 outside the array). -/
def nat2 {P Q : ℕ} (a : (⟨2, ![P, Q]⟩ : Shape).Idx → EReal) : ℕ → ℕ → EReal :=
  fun p q => if h : p < P ∧ q < Q then a (ix2 ⟨p, h.1⟩ ⟨q, h.2⟩) else 0

/-- A rank-1 array as a total function of a natural-number coordinate (0 outside the array). -/
def nat1 {Q : ℕ} (a : (⟨1, ![Q]⟩ : Shape).Idx → EReal) : ℕ → EReal :=
  fun q => if h : q < Q then a (ix1 ⟨q, h⟩) else 0

theorem nat2_of_lt {P Q : ℕ} (a : (⟨2, ![P, Q]⟩ : Shape).Idx → EReal) {p q : ℕ} (hp : p < P) (hq : q < Q) :
    nat2 a p q = a (ix2 ⟨p, hp⟩ ⟨q, hq⟩) := by
  unfold nat2; rw [dif_pos ⟨hp, hq⟩]

theorem nat2_apply {P Q : ℕ} (a : (⟨2, ![P, Q]⟩ : Shape).Idx → EReal) (p : Fin P) (q : Fin Q) :
    nat2 a p.val q.val = a (ix2 p q) := nat2_of_lt a p.isLt q.isLt

theorem nat1_of_lt {Q : ℕ} (a : (⟨1, ![Q]⟩ : Shape).Idx → EReal) {q : ℕ} (hq : q < Q) :
    nat1 a q = a (ix1 ⟨q, hq⟩) := by
  unfold nat1; rw [dif_pos hq]

theorem nat1_apply {Q : ℕ} (a : (⟨1, ![Q]⟩ : Shape).Idx → EReal) (q : Fin Q) : nat1 a q.val = a (ix1 q) :=
  nat1_of_lt a q.isLt

/-- THE RESULT ARRAY: `x` quantized by rows of 32, times the transpose of `w` quantized by 32 × 32 blocks, plus `b` along the rows. -/
def G (x w : (⟨2, ![4096, 4096]⟩ : Shape).Idx → EReal) (b : (⟨1, ![4096]⟩ : Shape).Idx → EReal) :
    (⟨2, ![4096, 4096]⟩ : Shape).Idx → EReal :=
  fun i => out (nat2 x) (fun K n => nat2 w n K) (nat1 b) (i 0).val (i 1).val

/-! ## Maxima: a fold of `max` is determined by what it bounds -/

/-- Two folds of `max` from one starting value, over any two finite families with the same upper bounds, are equal. -/
theorem fold_max_eq {ι κ : Type} (s : Finset ι) (t : Finset κ) (f : ι → EReal) (g : κ → EReal) (b : EReal)
    (h : ∀ c : EReal, (∀ i ∈ s, f i ≤ c) ↔ (∀ j ∈ t, g j ≤ c)) : s.fold max b f = t.fold max b g := by
  refine eq_of_forall_ge_iff fun c => ?_
  rw [Finset.fold_max_le, Finset.fold_max_le, h c]

/-- A fold of `max` of pointwise equal families. -/
theorem fold_max_congr {ι : Type} (s : Finset ι) (f g : ι → EReal) (b : EReal) (h : ∀ i ∈ s, f i = g i) :
    s.fold max b f = s.fold max b g :=
  Finset.fold_congr h

/-! ## A tile is the array read at an offset -/

/-- The column group of `K0 + K`, for a column offset that is a multiple of 32. -/
theorem group_shift {K0 : ℕ} (h : 32 ∣ K0) (K : ℕ) : 32 * ((K0 + K) / 32) = K0 + 32 * (K / 32) := by
  obtain ⟨a, rfl⟩ := h
  omega

end QuantDot

end
-- ==== Proof.RefRight.lean ====
/-
  The reference's quantized right operand, read at an index, is the specification's.

  The reference transposes the weight, views the transpose as 128 × 128 blocks of 32 × 32 — entry (g, u, h, v) of the view
  is the transpose's entry (32 g + u, 32 h + v), that is the weight's entry (32 h + v, 32 g + u) —, takes each block's
  largest absolute value as ONE maximum over the block's 1024 entries starting from −∞, replaces a zero maximum by one,
  divides 127 by it to get the block's scale, and quantizes every entry with its block's scale: multiply, round half to
  even, clip to [−127, 127], divide by the scale. The specification takes a block's maximum as a maximum over the rows of
  the maximum over a row's columns. A maximum of maxima and one maximum over the whole block bound the same family of
  entries — an index of the view lies over block (g, h) exactly when it is (g, u, h, v) for some u and v — so they are
  equal; everything else is the same arithmetic on the same entries.
-/
import proofs.«101226_j7533372638057_1_alg».proof.Proof.RefRead
import proofs.«101226_j7533372638057_1_alg».proof.Proof.QuantSpec
import Idealize.ShloMosaic.Lib.ValueIdx
import Idealize.ShloMosaic.PureOps.Reduce
import Idealize.ShloMosaic.PureOps.Ideal.Laws

noncomputable section

namespace Cert.ReferenceIdeal.RefRight

open Cert.ReferenceIdeal Cert.ReferenceIdeal.Gen Cert.ReferenceIdeal.ReadP Idealize.ShloMosaic Idealize.ShloMosaic.ValueIdx QuantDot

/-! ## The maximum over a 32 × 32 block -/

/-- Dropping the two inner axes of (g, u, h, v) leaves (g, h). -/
theorem drop_ix4 (hr : S128x32x128x32.ReducesTo [1, 3] S128x128) (g : Fin 128) (u : Fin 32) (h : Fin 128) (v : Fin 32) :
    hr.drop (ix4 g u h v) = ix2 g h := by
  funext b
  apply Fin.ext
  match b with
  | ⟨0, _⟩ => exact hr.drop_apply_val_of_eq (ix4 g u h v) 0 0
  | ⟨1, _⟩ => exact hr.drop_apply_val_of_eq (ix4 g u h v) 1 2

/-- An index that drops to (g, h) is (g, u, h, v) for its own u and v. -/
theorem eq_ix4_of_drop (hr : S128x32x128x32.ReducesTo [1, 3] S128x128) (i : S128x32x128x32.Idx) (g h : Fin 128)
    (hi : hr.drop i = ix2 g h) : i = ix4 g (i 1) h (i 3) := by
  have h0 : (i 0).val = g.val :=
    (hr.drop_apply_val_of_eq i 0 0).symm.trans (congrArg (fun j : S128x128.Idx => (j 0).val) hi)
  have h2 : (i 2).val = h.val :=
    (hr.drop_apply_val_of_eq i 1 2).symm.trans (congrArg (fun j : S128x128.Idx => (j 1).val) hi)
  funext a
  apply Fin.ext
  match a with
  | ⟨0, _⟩ => exact h0
  | ⟨1, _⟩ => rfl
  | ⟨2, _⟩ => exact h2
  | ⟨3, _⟩ => rfl

/-- THE BLOCK MAXIMUM: the maximum, from −∞, over the two inner axes of a [128,32,128,32] array at (g, h) is the maximum over
    u of the maximum over v of the entries (g, u, h, v): both bound the same family, since an index drops to (g, h) exactly
    when it is (g, u, h, v) for some u and v. -/
theorem reduce_blk (y : S128x32x128x32.Idx → EReal) (init : S_.Idx → EReal) (hr : S128x32x128x32.ReducesTo [1, 3] S128x128)
    (hu : 0 < S_.numel) (hinit : init (Shape.Idx.first hu) = negInf) (g h : Fin 128) :
    Host.reduce (FloatOps.maximumf (F := Ideal) (φ := .f32)) y init hr hu (ix2 g h)
      = Finset.univ.fold max negInf fun u : Fin 32 => Finset.univ.fold max negInf fun v : Fin 32 => y (ix4 g u h v) := by
  rw [Host.reduce_eq_fold, hinit]
  show (Finset.univ.filter fun i => hr.drop i = ix2 g h).fold max negInf y = _
  refine eq_of_forall_ge_iff fun c => ?_
  rw [Finset.fold_max_le, Finset.fold_max_le]
  constructor
  · rintro ⟨h0, hi⟩
    refine ⟨h0, fun u _ => ?_⟩
    rw [Finset.fold_max_le]
    exact ⟨h0, fun v _ => hi _ (Finset.mem_filter.mpr ⟨Finset.mem_univ _, drop_ix4 hr g u h v⟩)⟩
  · rintro ⟨h0, hall⟩
    refine ⟨h0, fun i hi => ?_⟩
    have e := eq_ix4_of_drop hr i g h (Finset.mem_filter.mp hi).2
    exact (congrArg y e).le.trans (((Finset.fold_max_le c).mp (hall (i 1) (Finset.mem_univ _))).2 (i 3) (Finset.mem_univ _))

/-! ## The reference's right operand, one stage at a time -/

/-- The transposed weight viewed as [128,32,128,32]: entry (g, u, h, v) is the weight's entry (32 h + v, 32 g + u). -/
theorem src_at (x1 : (⟨S4096x4096, .f32⟩ : BufTy).Contents (Elt Ideal)) (g : Fin 128) (u : Fin 32) (h : Fin 128) (v : Fin 32) :
    val_main_v18 (F := Ideal) x1 (ix4 g u h v)
      = x1 (ix2 ⟨32 * h.val + v.val, by have := h.isLt; have := v.isLt; omega⟩ ⟨32 * g.val + u.val, by have := g.isLt; have := u.isLt; omega⟩) := by
  have hg := g.isLt
  have hu := u.isLt
  have hh := h.isLt
  have hv := v.isLt
  rw [val_main_v18_apply, val_main_v17_apply]
  refine congrArg x1 (funext fun a => Fin.ext ?_)
  match a with
  | ⟨0, _⟩ =>
    show (((g.val * 32 + u.val) * 128 + h.val) * 32 + v.val) % 4096 = 32 * h.val + v.val
    omega
  | ⟨1, _⟩ =>
    show (((g.val * 32 + u.val) * 128 + h.val) * 32 + v.val) / 4096 = 32 * g.val + u.val
    omega

/-- The largest absolute value of the weight's block (g, h), as the reference computes it. -/
theorem max_at (x1 : (⟨S4096x4096, .f32⟩ : BufTy).Contents (Elt Ideal)) (g h : Fin 128) (z z' : Fin 1) :
    val_main_v21 (F := Ideal) x1 (ix4 g z h z')
      = Finset.univ.fold max negInf fun u : Fin 32 => Finset.univ.fold max negInf fun v : Fin 32 =>
          absE (x1 (ix2 ⟨32 * h.val + v.val, by have := h.isLt; have := v.isLt; omega⟩ ⟨32 * g.val + u.val, by have := g.isLt; have := u.isLt; omega⟩)) := by
  have e : idx_main_v21 (ix4 g z h z') = ix2 g h := funext fun a => Fin.ext (by
    match a with
    | ⟨0, _⟩ => rfl
    | ⟨1, _⟩ => rfl)
  rw [val_main_v21_apply, e]
  unfold val_main_v20
  refine (reduce_blk _ _ _ _ rfl g h).trans ?_
  refine Finset.fold_congr fun u _ => Finset.fold_congr fun v _ => ?_
  exact congrArg absE (src_at x1 g u h v)

/-- The scale of the weight's block (g, h), as the reference computes it: 127 over the guarded block maximum. -/
theorem scale_at (x1 : (⟨S4096x4096, .f32⟩ : BufTy).Contents (Elt Ideal)) (g h : Fin 128) (z z' : Fin 1) :
    val_main_v27 (F := Ideal) x1 (ix4 g z h z')
      = scaleOf (Finset.univ.fold max negInf fun u : Fin 32 => Finset.univ.fold max negInf fun v : Fin 32 =>
          absE (x1 (ix2 ⟨32 * h.val + v.val, by have := h.isLt; have := v.isLt; omega⟩ ⟨32 * g.val + u.val, by have := g.isLt; have := u.isLt; omega⟩))) := by
  rw [val_main_v27_apply, val_main_v25_apply, val_main_v23_apply, max_at, val_main_v26_apply, val_main_v24_apply,
    val_main_v22_apply]
  rfl

/-- The reference's quantized right operand as [128,32,128,32], at (g, u, h, v): the specification's entry (32 g + u, 32 h + v). -/
theorem right_at (x1 : (⟨S4096x4096, .f32⟩ : BufTy).Contents (Elt Ideal)) (g : Fin 128) (u : Fin 32) (h : Fin 128) (v : Fin 32) :
    val_main_v33 (F := Ideal) x1 (ix4 g u h v)
      = wq (fun K n => nat2 x1 n K) (32 * g.val + u.val) (32 * h.val + v.val) := by
  have hg := g.isLt
  have hu := u.isLt
  have hh := h.isLt
  have hv := v.isLt
  have e32 : idx_main_v32 (ix4 g u h v) = ix4 g (0 : Fin 1) h (0 : Fin 1) := funext fun a => Fin.ext (by
    match a with
    | ⟨0, _⟩ => rfl
    | ⟨1, _⟩ => rfl
    | ⟨2, _⟩ => rfl
    | ⟨3, _⟩ => rfl)
  have e28 : idx_main_v28 (ix4 g u h v) = ix4 g (0 : Fin 1) h (0 : Fin 1) := funext fun a => Fin.ext (by
    match a with
    | ⟨0, _⟩ => rfl
    | ⟨1, _⟩ => rfl
    | ⟨2, _⟩ => rfl
    | ⟨3, _⟩ => rfl)
  have dg : (32 * g.val + u.val) / 32 = g.val := by omega
  have dh : (32 * h.val + v.val) / 32 = h.val := by omega
  have eM : blkMax (fun K n => nat2 x1 n K) (32 * g.val + u.val) (32 * h.val + v.val)
      = Finset.univ.fold max negInf fun u' : Fin 32 => Finset.univ.fold max negInf fun v' : Fin 32 =>
          absE (x1 (ix2 ⟨32 * h.val + v'.val, by have := v'.isLt; omega⟩ ⟨32 * g.val + u'.val, by have := u'.isLt; omega⟩)) := by
    unfold blkMax
    rw [dg, dh]
    refine Finset.fold_congr fun u' _ => Finset.fold_congr fun v' _ => congrArg absE ?_
    exact nat2_of_lt x1 (by have := v'.isLt; omega) (by have := u'.isLt; omega)
  have eW : (fun K n => nat2 x1 n K) (32 * g.val + u.val) (32 * h.val + v.val)
      = x1 (ix2 ⟨32 * h.val + v.val, by omega⟩ ⟨32 * g.val + u.val, by omega⟩) :=
    nat2_of_lt x1 (by omega) (by omega)
  rw [val_main_v33_apply, val_main_v32_apply, e32, val_main_v31_apply, val_main_call5_v4_apply, val_main_call5_v3_apply,
    val_main_cst_10_apply, val_main_call5_v2_apply, val_main_call5_v1_apply, val_main_call5_v0_apply, val_main_cst_9_apply,
    val_main_v30_apply, val_main_v29_apply, val_main_v28_apply, e28, scale_at, src_at]
  unfold wq
  rw [eM, eW]
  rfl

/-- THE REFERENCE'S QUANTIZED RIGHT OPERAND at (K, n) is the specification's quantized entry (K, n) of the transposed weight. -/
theorem right_operand (x1 : (⟨S4096x4096, .f32⟩ : BufTy).Contents (Elt Ideal)) (K n : Fin 4096) :
    val_main_v34 (F := Ideal) x1 (ix2 K n) = wq (fun K n => nat2 x1 n K) K.val n.val := by
  have hK := K.isLt
  have hn := n.isLt
  have e34 : idx_main_v34 (ix2 K n)
      = ix4 (⟨K.val / 32, by omega⟩ : Fin 128) (⟨K.val % 32, Nat.mod_lt _ (by norm_num)⟩ : Fin 32)
          (⟨n.val / 32, by omega⟩ : Fin 128) (⟨n.val % 32, Nat.mod_lt _ (by norm_num)⟩ : Fin 32) :=
    funext fun a => Fin.ext (by
      match a with
      | ⟨0, _⟩ =>
        show (K.val * 4096 + n.val) / 131072 = K.val / 32
        omega
      | ⟨1, _⟩ =>
        show (K.val * 4096 + n.val) / 4096 % 32 = K.val % 32
        omega
      | ⟨2, _⟩ =>
        show (K.val * 4096 + n.val) / 32 % 128 = n.val / 32
        omega
      | ⟨3, _⟩ =>
        show (K.val * 4096 + n.val) % 32 = n.val % 32
        omega)
  rw [val_main_v34_apply, e34, right_at]
  show wq _ (32 * (K.val / 32) + K.val % 32) (32 * (n.val / 32) + n.val % 32) = _
  rw [Nat.div_add_mod, Nat.div_add_mod]

end Cert.ReferenceIdeal.RefRight

end
-- ==== Proof.RefIsSpec.lean ====
/-
  The reference is the specification.

  The reference quantizes its left operand x over groups of 32 consecutive columns of one row — it views x as [4096, 1, 128, 32],
  takes each group's largest absolute value (1 in place of 0), scales by 127 over it, rounds half to even, clips to [−127, 127]
  and divides by the scale again — and its right operand, the transpose of the weight, the same way over 32 × 32 blocks; it
  contracts the two over K < 4096 and adds the bias along the rows.

  Read at an index: entry (r, K) of the quantized left operand is entry (r, 0, K / 32, K % 32) of the four-axis view, whose group
  maximum is a fold of `max` over the indices that drop to (r, K / 32); those are the indices (r, 0, K / 32, l), l < 32, so the fold
  has the same upper bounds as the specification's fold over the 32 columns of the group, and is equal to it. The bias at (r, n)
  is the bias at n. The product at (r, n) is the sum over K of the quantized left operand at (r, K) times the quantized right
  operand at (K, n), which is the specification's contraction term by term.
-/
import proofs.«101226_j7533372638057_1_alg».proof.Proof.RefRead
import proofs.«101226_j7533372638057_1_alg».proof.Proof.QuantSpec
import proofs.«101226_j7533372638057_1_alg».proof.Proof.RefRight
import Idealize.ShloMosaic.Lib.ValueIdx
import Idealize.ShloMosaic.Lib.Pipeline.Value
import Idealize.ShloMosaic.PureOps.Reduce
import Idealize.ShloMosaic.PureOps.Ideal.Laws

noncomputable section

namespace Cert.ReferenceIdeal.RefSpec

open Cert.ReferenceIdeal Cert.ReferenceIdeal.Gen Cert.ReferenceIdeal.ReadP Idealize.ShloMosaic Idealize.ShloMosaic.ValueIdx QuantDot

/-! ## The left operand: rows of 128 groups of 32 columns -/

/-- The maximum over axes 1 and 3 of a [4096, 1, 128, 32] array, from the starting value's element: at (r, g) it is the largest of
    the 32 entries (r, 0, g, l). Both folds bound the same entries, so no correspondence of index sets is needed. -/
theorem reduce_groups (v : FVec Ideal S4096x1x128x32 .f32) (init : FVec Ideal S_ .f32)
    (h : S4096x1x128x32.ReducesTo [1, 3] S4096x128) (hu : 0 < S_.numel) (r : Fin 4096) (g : Fin 128) :
    Host.reduce FloatOps.maximumf v init h hu (ix2 r g)
      = Finset.univ.fold max (init (Shape.Idx.first hu)) (fun l : Fin 32 => v (ix4 r (0 : Fin 1) g l)) := by
  refine (Host.reduce_eq_fold _ v init h hu (ix2 r g)).trans ?_
  refine fold_max_eq _ _ _ _ _ fun c => ⟨fun H l _ => ?_, fun H i hi => ?_⟩
  · refine H (ix4 r (0 : Fin 1) g l) (Finset.mem_filter.2 ⟨Finset.mem_univ _, ?_⟩)
    funext b
    refine Fin.ext ?_
    match b with
    | ⟨0, _⟩ => exact h.drop_apply_val_of_eq _ 0 0
    | ⟨1, _⟩ => exact h.drop_apply_val_of_eq _ 1 2
  · have e := (Finset.mem_filter.1 hi).2
    have e0 : (i 0 : ℕ) = r.val :=
      (h.drop_apply_val_of_eq i 0 0).symm.trans (congrArg (fun j : S4096x128.Idx => ((j 0 : Fin _) : ℕ)) e)
    have e2 : (i 2 : ℕ) = g.val :=
      (h.drop_apply_val_of_eq i 1 2).symm.trans (congrArg (fun j : S4096x128.Idx => ((j 1 : Fin _) : ℕ)) e)
    have e1 : (i 1 : ℕ) < 1 := (i 1).isLt
    have e3 : (i 3 : ℕ) < 32 := (i 3).isLt
    have hi' : i = ix4 r (0 : Fin 1) g ⟨(i 3).val, e3⟩ := funext fun a => Fin.ext (by
      match a with
      | ⟨0, _⟩ => exact e0
      | ⟨1, _⟩ => show (i 1 : ℕ) = 0; omega
      | ⟨2, _⟩ => exact e2
      | ⟨3, _⟩ => rfl)
    rw [hi']
    exact H _ (Finset.mem_univ _)

/-- The array as [4096, 1, 128, 32]: entry (r, 0, g, l) is entry (r, 32 g + l). -/
theorem left_entry (x0 : (⟨S4096x4096, .f32⟩ : BufTy).Contents (Elt Ideal)) (r : Fin 4096) (g : Fin 128) (l : Fin 32) :
    val_main_v0 (F := Ideal) x0 (ix4 r (0 : Fin 1) g l) = nat2 x0 r.val (32 * g.val + l.val) := by
  have hq : 32 * g.val + l.val < 4096 := by have := g.isLt; have := l.isLt; omega
  rw [val_main_v0_apply, nat2_of_lt x0 r.isLt hq]
  refine congrArg x0 (funext fun a => Fin.ext ?_)
  have := g.isLt; have := l.isLt; have := r.isLt
  match a with
  | ⟨0, _⟩ => show (((r.val * 1 + 0) * 128 + g.val) * 32 + l.val) / 4096 = r.val; omega
  | ⟨1, _⟩ => show (((r.val * 1 + 0) * 128 + g.val) * 32 + l.val) % 4096 = 32 * g.val + l.val; omega

/-- The largest absolute value of group (r, g): the reference's maximum reduction is the specification's fold over the group's
    32 columns. -/
theorem left_max (x0 : (⟨S4096x4096, .f32⟩ : BufTy).Contents (Elt Ideal)) (r : Fin 4096) (g : Fin 128) :
    val_main_v2 (F := Ideal) x0 (ix2 r g)
      = Finset.univ.fold max negInf fun l : Fin 32 => absE (nat2 x0 r.val (32 * g.val + l.val)) := by
  unfold val_main_v2
  refine (reduce_groups _ _ _ _ r g).trans ?_
  refine fold_max_congr _ _ _ _ fun l _ => ?_
  rw [val_main_v1_apply, left_entry]
  rfl

/-- The scale of group (r, g): 127 over the group's guarded largest absolute value. -/
theorem left_scale (x0 : (⟨S4096x4096, .f32⟩ : BufTy).Contents (Elt Ideal)) (r : Fin 4096) (g : Fin 128) :
    val_main_v9 (F := Ideal) x0 (ix4 r (0 : Fin 1) g (0 : Fin 1)) = scaleOf (val_main_v2 (F := Ideal) x0 (ix2 r g)) := by
  have e3 : idx_main_v3 (ix4 r (0 : Fin 1) g (0 : Fin 1)) = ix2 r g := funext fun a => Fin.ext (by
    match a with
    | ⟨0, _⟩ => rfl
    | ⟨1, _⟩ => rfl)
  rw [val_main_v9_apply, val_main_v8_apply, val_main_cst_2_apply, val_main_v7_apply, val_main_v5_apply, val_main_v6_apply,
    val_main_cst_1_apply, val_main_v4_apply, val_main_cst_0_apply, val_main_v3_apply, e3]
  rfl

/-- The quantized entry (r, 0, g, l): the entry quantized with its group's scale and read back. -/
theorem left_quant (x0 : (⟨S4096x4096, .f32⟩ : BufTy).Contents (Elt Ideal)) (r : Fin 4096) (g : Fin 128) (l : Fin 32) :
    val_main_v15 (F := Ideal) x0 (ix4 r (0 : Fin 1) g l)
      = qdq (scaleOf (val_main_v2 (F := Ideal) x0 (ix2 r g))) (nat2 x0 r.val (32 * g.val + l.val)) := by
  have e10 : idx_main_v10 (ix4 r (0 : Fin 1) g l) = ix4 r (0 : Fin 1) g (0 : Fin 1) := funext fun a => Fin.ext (by
    match a with
    | ⟨0, _⟩ => rfl
    | ⟨1, _⟩ => rfl
    | ⟨2, _⟩ => rfl
    | ⟨3, _⟩ => rfl)
  have e14 : idx_main_v14 (ix4 r (0 : Fin 1) g l) = ix4 r (0 : Fin 1) g (0 : Fin 1) := funext fun a => Fin.ext (by
    match a with
    | ⟨0, _⟩ => rfl
    | ⟨1, _⟩ => rfl
    | ⟨2, _⟩ => rfl
    | ⟨3, _⟩ => rfl)
  rw [val_main_v15_apply, val_main_v13_apply, val_main_call2_v4_apply, val_main_call2_v3_apply, val_main_cst_4_apply,
    val_main_call2_v2_apply, val_main_call2_v1_apply, val_main_call2_v0_apply, val_main_cst_3_apply, val_main_v12_apply,
    val_main_v11_apply, left_entry, val_main_v10_apply, e10, val_main_v14_apply, e14, left_scale]
  rfl

/-- THE LEFT OPERAND: the reference's quantized left operand at (r, K) is the specification's. -/
theorem left_operand (x0 : (⟨S4096x4096, .f32⟩ : BufTy).Contents (Elt Ideal)) (r K : Fin 4096) :
    val_main_v16 (F := Ideal) x0 (ix2 r K) = xq (nat2 x0) r.val K.val := by
  have hg : K.val / 32 < 128 := by have := K.isLt; omega
  have hl : K.val % 32 < 32 := Nat.mod_lt _ (by norm_num)
  have e16 : idx_main_v16 (ix2 r K) = ix4 r (0 : Fin 1) ⟨K.val / 32, hg⟩ ⟨K.val % 32, hl⟩ := funext fun a => Fin.ext (by
    have := r.isLt; have := K.isLt
    match a with
    | ⟨0, _⟩ => show (r.val * 4096 + K.val) / 4096 = r.val; omega
    | ⟨1, _⟩ => rfl
    | ⟨2, _⟩ => show (r.val * 4096 + K.val) / 32 % 128 = K.val / 32; omega
    | ⟨3, _⟩ => show (r.val * 4096 + K.val) % 32 = K.val % 32; omega)
  rw [val_main_v16_apply, e16, left_quant, left_max]
  unfold xq rowMax
  show qdq (scaleOf (Finset.univ.fold max negInf fun l : Fin 32 => absE (nat2 x0 r.val (32 * (K.val / 32) + l.val))))
      (nat2 x0 r.val (32 * (K.val / 32) + K.val % 32)) = _
  rw [Nat.div_add_mod]

/-! ## The bias, the product, the result -/

/-- The bias broadcast along the rows: entry (r, n) is the bias at n. -/
theorem bias_entry (x2 : (⟨S4096, .f32⟩ : BufTy).Contents (Elt Ideal)) (r n : Fin 4096) :
    val_main_v37 (F := Ideal) x2 (ix2 r n) = nat1 x2 n.val := by
  rw [val_main_v37_apply, val_main_v36_apply, nat1_of_lt x2 n.isLt]
  refine congrArg x2 (funext fun a => Fin.ext ?_)
  match a with
  | ⟨0, _⟩ => rfl

/-- THE REFERENCE IS THE SPECIFICATION, given the quantized right operand: the product of the quantized operands contracts over
    K < 4096, and the bias is added along the rows. -/
theorem ref_is_G_of
    (hR : ∀ (x1 : (⟨S4096x4096, .f32⟩ : BufTy).Contents (Elt Ideal)) (K n : Fin 4096),
      val_main_v34 (F := Ideal) x1 (ix2 K n) = wq (fun K n => nat2 x1 n K) K.val n.val)
    (x0 x1 : (⟨S4096x4096, .f32⟩ : BufTy).Contents (Elt Ideal)) (x2 : (⟨S4096, .f32⟩ : BufTy).Contents (Elt Ideal)) :
    val_main_v38 (F := Ideal) x0 x1 x2 = QuantDot.G x0 x1 x2 := by
  funext i
  obtain ⟨r, n, rfl⟩ : ∃ r n : Fin 4096, i = ix2 r n := ⟨i 0, i 1, eq_ix2 i⟩
  rw [val_main_v38_apply, val_main_v35_apply, bias_entry]
  show (∑ k : Fin 4096, val_main_v16 (F := Ideal) x0 (lidx_main_v35 (ix2 r n) k) * val_main_v34 (F := Ideal) x1 (ridx_main_v35 (ix2 r n) k))
        + nat1 x2 n.val
      = (∑ K : Fin 4096, xq (nat2 x0) r.val K.val * wq (fun K n => nat2 x1 n K) K.val n.val) + nat1 x2 n.val
  refine congrArg (· + nat1 x2 n.val) (Finset.sum_congr rfl fun k _ => ?_)
  have el : lidx_main_v35 (ix2 r n) k = ix2 r k := funext fun a => Fin.ext (by
    match a with
    | ⟨0, _⟩ => rfl
    | ⟨1, _⟩ => rfl)
  have er : ridx_main_v35 (ix2 r n) k = ix2 k n := funext fun a => Fin.ext (by
    match a with
    | ⟨0, _⟩ => rfl
    | ⟨1, _⟩ => rfl)
  rw [el, er, left_operand, hR]

/-- THE REFERENCE IS THE SPECIFICATION: with the quantized right operand read at an index, the reference's result array is G of
    its three arguments. -/
theorem ref_is_G (x0 x1 : (⟨S4096x4096, .f32⟩ : BufTy).Contents (Elt Ideal)) (x2 : (⟨S4096, .f32⟩ : BufTy).Contents (Elt Ideal)) :
    val_main_v38 (F := Ideal) x0 x1 x2 = QuantDot.G x0 x1 x2 :=
  ref_is_G_of Cert.ReferenceIdeal.RefRight.right_operand x0 x1 x2

end Cert.ReferenceIdeal.RefSpec

end
-- ==== Proof.LibPlainDot.lean ====
/-
  A plain matrix product — rows × contraction times contraction × columns, no batch axis — read at an index.

  For dimension numbers `d` of that kind over shapes `[P, K]`, `[K, Q]`, `[P, Q]`, the exact contraction
  `∑ κ, l (d.lhsIdx j κ) * r (d.rhsIdx j κ)` over the one contracted axis is the textbook sum
  `∑ k : Fin K, l (p, k) * r (k, q)` at the result index `j = (p, q)`: the left operand is read at row `p` and the
  right at column `q`, and the contracted axis of extent `K` is re-indexed by `Fin K`.
-/
import Idealize.ShloMosaic.Lib.ValueIdx
import Idealize.ShloMosaic.PureOps.Ideal.Laws

noncomputable section

namespace PlainDot

open Idealize.ShloMosaic Idealize.ShloMosaic.ValueIdx

variable {P K Q : Nat}

/-- The dimension numbers of a plain product: the left operand contracts its second axis against the right operand's
    first; the other two axes are the result's, in that order; no batch axis. -/
structure IsPlain (d : DotDims ⟨2, ![P, K]⟩ ⟨2, ![K, Q]⟩ ⟨2, ![P, Q]⟩) : Prop where
  lc : d.lhsContracting = [(1 : Fin 2)]
  rc : d.rhsContracting = [(0 : Fin 2)]
  ln : d.lhsNonContracting = [(0 : Fin 2)]
  rn : d.rhsNonContracting = [(1 : Fin 2)]
  lb : d.lhsBatch = []
  rb : d.rhsBatch = []

theorem coord_val_congr {s : Shape} (j : s.Idx) {a b : Fin s.rank} (e : a = b) : (j a).val = (j b).val := by
  subst e; rfl

variable {d : DotDims ⟨2, ![P, K]⟩ ⟨2, ![K, Q]⟩ ⟨2, ![P, Q]⟩}

/-- The left operand's row is the result's row. -/
theorem lhs_row (h : IsPlain d) (j : (⟨2, ![P, Q]⟩ : Shape).Idx) (κ : d.contr.Idx) :
    (d.lhsIdx j κ (0 : Fin 2)).val = (j (0 : Fin 2)).val := by
  unfold DotDims.lhsIdx
  rw [dif_neg (by rw [h.lb]; exact List.not_mem_nil), dif_pos (by rw [h.ln]; exact List.mem_singleton.2 rfl)]
  simp only [Fin.val_cast]
  exact coord_val_congr j (Fin.ext (by simp [h.lb, h.ln]))

/-- The right operand's column is the result's column. -/
theorem rhs_col (h : IsPlain d) (j : (⟨2, ![P, Q]⟩ : Shape).Idx) (κ : d.contr.Idx) :
    (d.rhsIdx j κ (1 : Fin 2)).val = (j (1 : Fin 2)).val := by
  unfold DotDims.rhsIdx
  rw [dif_neg (by rw [h.rb]; exact List.not_mem_nil), dif_pos (by rw [h.rn]; exact List.mem_singleton.2 rfl)]
  simp only [Fin.val_cast]
  exact coord_val_congr j (Fin.ext (by simp [h.lb, h.ln, h.rn]))

theorem contr_rank (h : IsPlain d) : d.contr.rank = 1 := by rw [d.rank_contr, h.lc]; rfl

theorem contr_size (h : IsPlain d) : d.contr.size ⟨0, by rw [contr_rank h]; exact Nat.one_pos⟩ = K := by
  have e := d.size_contr 0 (by rw [h.lc]; exact Nat.one_pos)
  rw [e]
  simp [h.lc]

/-- THE PRODUCT AT `(p, q)`: the sum over `k : Fin K` of the left operand at `(p, k)` times the right at `(k, q)`. -/
theorem sum_eq (h : IsPlain d) (l : (⟨2, ![P, K]⟩ : Shape).Idx → EReal) (r : (⟨2, ![K, Q]⟩ : Shape).Idx → EReal)
    (p : Fin P) (q : Fin Q) :
    ∑ κ : d.contr.Idx, l (d.lhsIdx (ix2 p q) κ) * r (d.rhsIdx (ix2 p q) κ) = ∑ k : Fin K, l (ix2 p k) * r (ix2 k q) := by
  rw [← Equiv.sum_comp (contrEquiv1 d K (contr_rank h) (contr_size h)).symm]
  refine Finset.sum_congr rfl fun k _ => ?_
  have hk := contrEquiv1_symm_val d K (contr_rank h) (contr_size h) k
  have el : d.lhsIdx (ix2 p q) ((contrEquiv1 d K (contr_rank h) (contr_size h)).symm k) = ix2 p k :=
    funext fun a => Fin.ext (by
      match a with
      | ⟨0, _⟩ => exact lhs_row h _ _
      | ⟨1, _⟩ => exact (d.lhsIdx_val_of_single h.lc _ _).trans hk)
  have er : d.rhsIdx (ix2 p q) ((contrEquiv1 d K (contr_rank h) (contr_size h)).symm k) = ix2 k q :=
    funext fun a => Fin.ext (by
      match a with
      | ⟨0, _⟩ => exact (d.rhsIdx_val_of_single h.rc _ _).trans hk
      | ⟨1, _⟩ => exact rhs_col h _ _)
  rw [el, er]

/-- A `tpu.matmul` into the zero accumulator, at the ideal instance, read at `(p, q)`. -/
theorem matmul_zero_apply (h : IsPlain d) {φ₁ φ₂ : FTy} (l : FVec Ideal ⟨2, ![P, K]⟩ φ₁) (r : FVec Ideal ⟨2, ![K, Q]⟩ φ₂)
    (p : Fin P) (q : Fin Q) :
    FloatOps.matmul d none l r (constant ⟨2, ![P, Q]⟩ .f32 0x00000000#32) (ix2 p q) = ∑ k : Fin K, l (ix2 p k) * r (ix2 k q) := by
  rw [Ideal.matmul_constant_zero_apply]
  exact sum_eq h l r p q

/-- The host's `dot_general`, at the ideal instance, read at `(p, q)`. -/
theorem dotGeneral_apply (h : IsPlain d) {φ₁ φ₂ : FTy} (sched : HostSchedule) (l : FVec Ideal ⟨2, ![P, K]⟩ φ₁)
    (r : FVec Ideal ⟨2, ![K, Q]⟩ φ₂) (p : Fin P) (q : Fin Q) :
    FloatOps.dotGeneral d none sched l r (ix2 p q) = ∑ k : Fin K, l (ix2 p k) * r (ix2 k q) := by
  rw [Ideal.dotGeneral_apply]
  exact sum_eq h l r p q

end PlainDot

end
-- ==== Proof.LibRowBroadcast.lean ====
/-
  Reading a row vector that is laid along the lanes at an index.

  A vector `[b]` cast to a one-row array `[1, b]` holds, at `(0, k)`, the vector's entry `k`; such a row broadcast over `a` rows,
  `[1, b] → [a, b]`, holds at `(r, k)` the row's entry `k`, whatever the row number `r`.  Each lemma reads one of these at an index
  written with literal coordinates.
-/
import Idealize.ShloMosaic.Lib.ValueIdx
import Idealize.ShloMosaic.Lib.ValueLayout
import Idealize.ShloMosaic.Lib.Pipeline.Value

noncomputable section

namespace RowBroadcast

open Idealize.ShloMosaic Idealize.ShloMosaic.ValueIdx

variable {α : Type} {a b : ℕ}

/-- A vector `[b]` cast to a row `[1, b]` reads, at `(u, k)`, the vector at `k`. -/
theorem shapeCast_b_1b_apply (x : (⟨1, ![b]⟩ : Shape).Idx → α) (h : (⟨1, ![b]⟩ : Shape).ShapeCasts ⟨2, ![1, b]⟩)
    (u : Fin 1) (k : Fin b) : shapeCast ⟨2, ![1, b]⟩ x h (ix2 u k) = x (ix1 k) :=
  shapeCast_apply x h _ _ (by
    have hu : u.val = 0 := by omega
    rw [Shape.rowMajor_val_two, Shape.rowMajor_val_one]
    show k.val = u.val * b + k.val
    rw [hu, Nat.zero_mul, Nat.zero_add])

/-- A row `[1, b]` broadcast over `a` rows reads, at `(r, k)`, the row at `k`. -/
theorem broadcastTo_1b_ab_apply (v : (⟨2, ![1, b]⟩ : Shape).Idx → α) (h : (⟨2, ![1, b]⟩ : Shape).Broadcasts ⟨2, ![a, b]⟩)
    (r : Fin a) (k : Fin b) : broadcastTo ⟨2, ![a, b]⟩ v h (ix2 r k) = v (ix2 (0 : Fin 1) k) := by
  refine broadcastTo_apply v h (ix2 r k) (ix2 (0 : Fin 1) k) fun ax => ?_
  match ax with
  | ⟨0, _⟩ => rfl
  | ⟨1, _⟩ =>
    show k.val = if b = 1 then 0 else k.val
    split
    · have := k.isLt; omega
    · rfl

end RowBroadcast

end
-- ==== Proof.TileValue.lean ====
/-
  The kernel's body on one pair of tiles, read at an index, at the ideal values.

  A grid point loads a 512 × 512 tile of the left operand and a 512 × 512 tile of the right operand. It views the left tile as
  512 rows of 16 groups of 32 lanes, takes each group's largest absolute value, and quantizes every lane with its group's
  scale; it views the right tile as 16 × 16 blocks of 32 × 32, takes each block's largest absolute value (over the columns of a
  row first, then over the rows), and quantizes every entry with its block's scale. When the tile is the array read at an
  offset that is a multiple of 32, a tile group is an array group and a tile block an array block, so the tile's quantized
  entry IS the array's quantized entry at the shifted coordinates (`xq_tile`, `wq_tile`). The point then adds the product
  of the two quantized tiles — a sum over the 512 contracted positions — to what the accumulator held (`acc_step`); the
  last point of a run adds the bias row (`bias_step`); the first starts from the zero block (`zero_block`).
-/
import proofs.«101226_j7533372638057_1_alg».proof.Proof.Gen.KernelIdeal.Skeleton
import proofs.«101226_j7533372638057_1_alg».proof.Proof.QuantSpec
import proofs.«101226_j7533372638057_1_alg».proof.Proof.LibPlainDot
import proofs.«101226_j7533372638057_1_alg».proof.Proof.LibRowBroadcast
import Idealize.ShloMosaic.Lib.ValueIdx
import Idealize.ShloMosaic.Lib.ValueLayout
import Idealize.ShloMosaic.Lib.Pipeline.Value
import Idealize.ShloMosaic.PureOps.Ideal.Laws

noncomputable section
namespace Cert.KernelIdeal.Tile
open Cert.KernelIdeal Cert.KernelIdeal.Gen Idealize.ShloMosaic Idealize.ShloMosaic.ValueIdx QuantDot

/-! ## The left tile: 512 rows of 16 groups of 32 lanes -/

/-- [512,16,32] read as [512,512]: entry (r, k) is entry (r, k / 32, k % 32). -/
theorem cast_3_to_2 (v : FVec Ideal S512x16x32 .f32) (h : S512x16x32.ShapeCasts S512x512) (r k : Fin 512) :
    shapeCast S512x512 v h (ix2 r k)
      = v (ix3 r ⟨k.val / 32, by have := k.isLt; omega⟩ ⟨k.val % 32, Nat.mod_lt _ (by norm_num)⟩) :=
  shapeCast_apply v h _ _ (by
    rw [Shape.rowMajor_val_three, Shape.rowMajor_val_two]
    show (r.val * 16 + k.val / 32) * 32 + k.val % 32 = r.val * 512 + k.val
    omega)

/-- [512,512] read as [512,16,32]: entry (r, g, l) is entry (r, 32 g + l). -/
theorem cast_2_to_3 (x : FVec Ideal S512x512 .f32) (h : S512x512.ShapeCasts S512x16x32) (r : Fin 512) (g : Fin 16) (l : Fin 32) :
    shapeCast S512x16x32 x h (ix3 r g l) = x (ix2 r ⟨32 * g.val + l.val, by have := g.isLt; have := l.isLt; omega⟩) :=
  shapeCast_apply x h _ _ (by
    rw [Shape.rowMajor_val_three, Shape.rowMajor_val_two]
    show r.val * 512 + (32 * g.val + l.val) = (r.val * 16 + g.val) * 32 + l.val
    omega)

/-- A per-group value [512,16,1] broadcast over the 32 lanes of its group. -/
theorem bcast_lane (s : FVec Ideal S512x16x1 .f32) (h : S512x16x1.Broadcasts S512x16x32) (r : Fin 512) (g : Fin 16) (l : Fin 32) :
    broadcastTo S512x16x32 s h (ix3 r g l) = s (ix3 r g (0 : Fin 1)) :=
  broadcastTo_apply s h (ix3 r g l) (ix3 r g (0 : Fin 1)) fun a => by
    match a with
    | ⟨0, _⟩ => rfl
    | ⟨1, _⟩ => rfl
    | ⟨2, _⟩ => rfl

/-- A per-group value [512,16] given a trailing axis of extent one. -/
theorem cast_add_unit (v : FVec Ideal S512x16 .f32) (h : S512x16.ShapeCasts S512x16x1) (r : Fin 512) (g : Fin 16) (u : Fin 1) :
    shapeCast S512x16x1 v h (ix3 r g u) = v (ix2 r g) :=
  shapeCast_apply v h _ _ (by
    have hu : u.val = 0 := by omega
    rw [Shape.rowMajor_val_three, Shape.rowMajor_val_two]
    show r.val * 16 + g.val = (r.val * 16 + g.val) * 1 + u.val
    omega)

/-- The maximum over the 32 lanes of group (r, g), from −∞. -/
theorem lane_max (v : FVec Ideal S512x16x32 .f32) (h : S512x16x32.Reduces [2] S512x16) (hφ : FKind.Formats .f32)
    (hacc : (0xFF800000#32 : BitVec 32) = 0xFF800000#32) (r : Fin 512) (g : Fin 16) :
    multiReduction .maximumf [2] S512x16 v 0xFF800000#32 h hφ hacc (ix2 r g)
      = Finset.univ.fold max negInf (fun l : Fin 32 => v (ix3 r g l)) := by
  refine (Ideal.multiReduction_maximumf_single v 0xFF800000#32 h hφ hacc (ix2 r g)).trans ?_
  show Finset.univ.fold max negInf (fun l : Fin 32 => v (h.lift (ix2 r g) l)) = _
  refine Finset.fold_congr fun l _ => congrArg v (funext fun a => Fin.ext ?_)
  match a with
  | ⟨0, _⟩ => rfl
  | ⟨1, _⟩ => rfl
  | ⟨2, _⟩ => rfl

/-- THE LEFT TILE, QUANTIZED: if the tile is the array `X` read at the offset `(R0, K0)`, `K0` a multiple of 32, then the tile's
    quantized entry (r, k) is the array's quantized entry `(R0 + r, K0 + k)`: the 32 lanes of the tile's group of `k` are the 32
    columns of the array's group of `K0 + k`. -/
theorem xq_tile (x0 : Vec Ideal S512x512 .f32) (X : ℕ → ℕ → EReal) (R0 K0 : ℕ) (h32 : 32 ∣ K0)
    (hx : ∀ r k : Fin 512, x0 (ix2 r k) = X (R0 + r.val) (K0 + k.val)) (r k : Fin 512) :
    k0_pay4 (F := Ideal) x0 (ix2 r k) = xq X (R0 + r.val) (K0 + k.val) := by
  unfold k0_pay4
  refine (cast_3_to_2 _ _ r k).trans ?_
  simp only [divf, minimumf, maximumf, mulf, roundeven, broadcast, select, cmpf, bcast_lane, cast_add_unit, cast_2_to_3, hx]
  rw [lane_max]
  simp only [absf, cast_2_to_3, hx]
  unfold xq qdq scaleOf QuantDot.guard rowMax absE
  simp only [Nat.div_add_mod, group_shift h32, Nat.add_assoc]
  simp only [Ideal.divf_def, Ideal.minimumf_def, Ideal.maximumf_def, Ideal.mulf_def, Ideal.roundeven_def, Ideal.ofBits_def,
    Ideal.cmpf_def, Ideal.absf_def]

/-! ## The right tile: 16 groups of 32 rows by 16 groups of 32 columns -/

/-- [512,512] read as [16,32,16,32]: entry (g, u, h, v) is entry (32 g + u, 32 h + v). -/
theorem cast_2_to_4 (x : FVec Ideal S512x512 .f32) (hc : S512x512.ShapeCasts S16x32x16x32) (g : Fin 16) (u : Fin 32) (h : Fin 16) (v : Fin 32) :
    shapeCast S16x32x16x32 x hc (ix4 g u h v)
      = x (ix2 ⟨32 * g.val + u.val, by have := g.isLt; have := u.isLt; omega⟩ ⟨32 * h.val + v.val, by have := h.isLt; have := v.isLt; omega⟩) :=
  shapeCast_apply x hc _ _ (by
    rw [Shape.rowMajor_val_four, Shape.rowMajor_val_two]
    show (32 * g.val + u.val) * 512 + (32 * h.val + v.val) = ((g.val * 32 + u.val) * 16 + h.val) * 32 + v.val
    omega)

/-- [16,32,16,32] read as [512,512]: entry (k, n) is entry (k / 32, k % 32, n / 32, n % 32). -/
theorem cast_4_to_2 (w : FVec Ideal S16x32x16x32 .f32) (hc : S16x32x16x32.ShapeCasts S512x512) (k n : Fin 512) :
    shapeCast S512x512 w hc (ix2 k n)
      = w (ix4 ⟨k.val / 32, by have := k.isLt; omega⟩ ⟨k.val % 32, Nat.mod_lt _ (by norm_num)⟩
            ⟨n.val / 32, by have := n.isLt; omega⟩ ⟨n.val % 32, Nat.mod_lt _ (by norm_num)⟩) :=
  shapeCast_apply w hc _ _ (by
    rw [Shape.rowMajor_val_four, Shape.rowMajor_val_two]
    show ((k.val / 32 * 32 + k.val % 32) * 16 + n.val / 32) * 32 + n.val % 32 = k.val * 512 + n.val
    omega)

/-- The maximum over the 32 columns of one row of a block, from −∞. -/
theorem col_max (w : FVec Ideal S16x32x16x32 .f32) (hr : S16x32x16x32.Reduces [3] S16x32x16) (hφ : FKind.Formats .f32)
    (hacc : (0xFF800000#32 : BitVec 32) = 0xFF800000#32) (g : Fin 16) (u : Fin 32) (h : Fin 16) :
    multiReduction .maximumf [3] S16x32x16 w 0xFF800000#32 hr hφ hacc (ix3 g u h)
      = Finset.univ.fold max negInf (fun v : Fin 32 => w (ix4 g u h v)) := by
  refine (Ideal.multiReduction_maximumf_single w 0xFF800000#32 hr hφ hacc (ix3 g u h)).trans ?_
  show Finset.univ.fold max negInf (fun v : Fin 32 => w (hr.lift (ix3 g u h) v)) = _
  refine Finset.fold_congr fun v _ => congrArg w (funext fun a => Fin.ext ?_)
  match a with
  | ⟨0, _⟩ => rfl
  | ⟨1, _⟩ => rfl
  | ⟨2, _⟩ => rfl
  | ⟨3, _⟩ => rfl

/-- The per-row maxima [16,32,16] given a trailing axis of extent one. -/
theorem cast_3_add_unit (w : FVec Ideal S16x32x16 .f32) (hc : S16x32x16.ShapeCasts S16x32x16x1) (g : Fin 16) (u : Fin 32) (h : Fin 16) (z : Fin 1) :
    shapeCast S16x32x16x1 w hc (ix4 g u h z) = w (ix3 g u h) :=
  shapeCast_apply w hc _ _ (by
    have hz : z.val = 0 := by omega
    rw [Shape.rowMajor_val_four, Shape.rowMajor_val_three]
    show (g.val * 32 + u.val) * 16 + h.val = ((g.val * 32 + u.val) * 16 + h.val) * 1 + z.val
    omega)

/-- The maximum over the 32 rows of a block, from −∞. -/
theorem row_max (w : FVec Ideal S16x32x16x1 .f32) (hr : S16x32x16x1.Reduces [1] S16x16x1) (hφ : FKind.Formats .f32)
    (hacc : (0xFF800000#32 : BitVec 32) = 0xFF800000#32) (g : Fin 16) (h : Fin 16) (z : Fin 1) :
    multiReduction .maximumf [1] S16x16x1 w 0xFF800000#32 hr hφ hacc (ix3 g h z)
      = Finset.univ.fold max negInf (fun u : Fin 32 => w (ix4 g u h z)) := by
  refine (Ideal.multiReduction_maximumf_single w 0xFF800000#32 hr hφ hacc (ix3 g h z)).trans ?_
  show Finset.univ.fold max negInf (fun u : Fin 32 => w (hr.lift (ix3 g h z) u)) = _
  refine Finset.fold_congr fun u _ => congrArg w (funext fun a => Fin.ext ?_)
  match a with
  | ⟨0, _⟩ => rfl
  | ⟨1, _⟩ => rfl
  | ⟨2, _⟩ => rfl
  | ⟨3, _⟩ => rfl

/-- The per-block maxima [16,16,1] read as [16,1,16,1]. -/
theorem cast_3_to_4 (w : FVec Ideal S16x16x1 .f32) (hc : S16x16x1.ShapeCasts S16x1x16x1) (g : Fin 16) (o : Fin 1) (h : Fin 16) (z : Fin 1) :
    shapeCast S16x1x16x1 w hc (ix4 g o h z) = w (ix3 g h z) :=
  shapeCast_apply w hc _ _ (by
    have ho : o.val = 0 := by omega
    rw [Shape.rowMajor_val_four, Shape.rowMajor_val_three]
    show (g.val * 16 + h.val) * 1 + z.val = ((g.val * 1 + o.val) * 16 + h.val) * 1 + z.val
    omega)

/-- A per-block value [16,1,16,1] broadcast over the 32 × 32 entries of its block. -/
theorem bcast_block (s : FVec Ideal S16x1x16x1 .f32) (hb : S16x1x16x1.Broadcasts S16x32x16x32) (g : Fin 16) (u : Fin 32) (h : Fin 16) (v : Fin 32) :
    broadcastTo S16x32x16x32 s hb (ix4 g u h v) = s (ix4 g (0 : Fin 1) h (0 : Fin 1)) :=
  broadcastTo_apply s hb (ix4 g u h v) (ix4 g (0 : Fin 1) h (0 : Fin 1)) fun a => by
    match a with
    | ⟨0, _⟩ => rfl
    | ⟨1, _⟩ => rfl
    | ⟨2, _⟩ => rfl
    | ⟨3, _⟩ => rfl

/-- The largest entry of a 32 × 32 block: the maximum over the columns of each row, then over the rows. -/
theorem block_max (w : FVec Ideal S16x32x16x32 .f32) (hr3 : S16x32x16x32.Reduces [3] S16x32x16) (hc : S16x32x16.ShapeCasts S16x32x16x1)
    (hr1 : S16x32x16x1.Reduces [1] S16x16x1) (hφ : FKind.Formats .f32) (hacc : (0xFF800000#32 : BitVec 32) = 0xFF800000#32)
    (g h : Fin 16) (z : Fin 1) :
    multiReduction .maximumf [1] S16x16x1
        (shapeCast S16x32x16x1 (multiReduction .maximumf [3] S16x32x16 w 0xFF800000#32 hr3 hφ hacc) hc) 0xFF800000#32 hr1 hφ hacc (ix3 g h z)
      = Finset.univ.fold max negInf fun u : Fin 32 => Finset.univ.fold max negInf fun v : Fin 32 => w (ix4 g u h v) :=
  (row_max _ hr1 hφ hacc g h z).trans
    (Finset.fold_congr fun u _ => (cast_3_add_unit _ hc g u h z).trans (col_max w hr3 hφ hacc g u h))

/-- The right tile quantized, as the body computes it from the tile's three derived values (the tile as [16,32,16,32], its
    per-block scale, the scale broadcast over the block). -/
def wqTile (x1 : Vec Ideal S512x512 .f32) : FVec Ideal S512x512 .f32 :=
  shapeCast S512x512
    (divf (minimumf (broadcast S16x32x16x32 (Scalar.ofBits .f32 0x42FE0000#32))
        (maximumf (broadcast S16x32x16x32 (Scalar.ofBits .f32 0xC2FE0000#32)) (roundeven (mulf (k0_pay5 (F := Ideal) x1) (k0_pay7 x1)))))
      (broadcastTo S16x32x16x32 (k0_pay6 x1) broadcasts_S16x1x16x1_S16x32x16x32))
    shapeCasts_S16x32x16x32_S512x512

/-- THE RIGHT TILE, QUANTIZED: if the tile is the array `W` read at the offset `(K0, N0)`, both multiples of 32, then the tile's
    quantized entry (k, n) is the array's quantized entry `(K0 + k, N0 + n)`. -/
theorem wq_tile (x1 : Vec Ideal S512x512 .f32) (W : ℕ → ℕ → EReal) (K0 N0 : ℕ) (hK : 32 ∣ K0) (hN : 32 ∣ N0)
    (hw : ∀ k n : Fin 512, x1 (ix2 k n) = W (K0 + k.val) (N0 + n.val)) (k n : Fin 512) :
    wqTile x1 (ix2 k n) = wq W (K0 + k.val) (N0 + n.val) := by
  unfold wqTile
  refine (cast_4_to_2 _ _ k n).trans ?_
  unfold k0_pay7 k0_pay6 k0_pay5
  simp only [divf, minimumf, maximumf, mulf, roundeven, broadcast, select, cmpf, bcast_block, cast_3_to_4, cast_2_to_4, shapeCast_self, hw]
  rw [block_max]
  simp only [absf, cast_2_to_4, shapeCast_self, hw]
  unfold wq qdq scaleOf QuantDot.guard blkMax absE
  simp only [Nat.div_add_mod, group_shift hK, group_shift hN, Nat.add_assoc]
  simp only [Ideal.divf_def, Ideal.minimumf_def, Ideal.maximumf_def, Ideal.mulf_def, Ideal.roundeven_def, Ideal.ofBits_def,
    Ideal.cmpf_def, Ideal.absf_def]

/-! ## One grid point's arithmetic -/

/-- The tiles' product contracts the left tile's columns against the right tile's rows. -/
theorem plain512 : PlainDot.IsPlain dot_S512x512_S512x512_S512x512_1_0_0_1_n_n := ⟨rfl, rfl, rfl, rfl, rfl, rfl⟩

/-- ONE STEP OF THE ACCUMULATION: what a point stores into the accumulator is what the accumulator held plus the sum, over the
    512 contracted positions of this pair of tiles, of the arrays' quantized entries. -/
theorem acc_step (x0 x1 acc : Vec Ideal S512x512 .f32) (X W : ℕ → ℕ → EReal) (R0 K0 N0 : ℕ) (hK : 32 ∣ K0) (hN : 32 ∣ N0)
    (hx : ∀ r k : Fin 512, x0 (ix2 r k) = X (R0 + r.val) (K0 + k.val))
    (hw : ∀ k n : Fin 512, x1 (ix2 k n) = W (K0 + k.val) (N0 + n.val)) (r n : Fin 512) :
    k0_pay1 (F := Ideal) (k0_pay4 x0) (k0_pay5 x1) (k0_pay6 x1) (k0_pay7 x1) acc (ix2 r n)
      = acc (ix2 r n) + ∑ k : Fin 512, xq X (R0 + r.val) (K0 + k.val) * wq W (K0 + k.val) (N0 + n.val) := by
  unfold k0_pay1
  refine (congrFun (shapeCast_self _ _) _).trans ?_
  refine congrArg (fun z => acc (ix2 r n) + z) ?_
  refine (PlainDot.matmul_zero_apply plain512 _ _ r n).trans ?_
  refine Finset.sum_congr rfl fun k _ => ?_
  rw [truncf_apply, truncf_apply, xq_tile x0 X R0 K0 hK hx r k]
  exact congrArg (fun z => xq X (R0 + r.val) (K0 + k.val) * z) (wq_tile x1 W K0 N0 hK hN hw k n)

/-- THE LAST POINT OF A RUN: the output block is the accumulator plus the bias row, the same row for every row of the block. -/
theorem bias_step (acc : Vec Ideal S512x512 .f32) (x2 : Vec Ideal S1x512 .f32) (r n : Fin 512) :
    k0_pay2 (F := Ideal) acc x2 (ix2 r n) = acc (ix2 r n) + x2 (ix2 (0 : Fin 1) n) := by
  unfold k0_pay2
  refine congrArg (fun z => acc (ix2 r n) + z) ?_
  refine (RowBroadcast.broadcastTo_1b_ab_apply _ _ r n).trans ?_
  rw [shapeCast_self, shapeCast_self]

/-- THE FIRST POINT OF A RUN starts the accumulator from the zero block. -/
theorem zero_block (r n : Fin 512) : k0_pay3 (F := Ideal) (ix2 r n) = 0 := by
  unfold k0_pay3
  refine (congrFun (shapeCast_self _ _) _).trans ?_
  exact Ideal.ofBits_zero_f32

end Cert.KernelIdeal.Tile
end
-- ==== Proof.KernelPieces.lean ====
/-
  What each of the body's three control cases leaves in the accumulator and in the output block, as terms of the blocks it
  loads and of what the accumulator held.

  At a point of the grid the body (optionally) zeroes the accumulator, quantizes its two tiles, adds their product onto the
  accumulator, and (optionally) stores the accumulator plus the bias row into the output block. Case A (first run of the
  contraction) zeroes and then adds: the accumulator ends at `0 + product`, the zero block read back from the store that
  covers it. Case B (a middle run) ends at `acc + product`. Case C (last run) ends at `acc + product` too, and the
  output block at that sum — read back from the accumulator AFTER the product's store — plus the bias row broadcast along
  the rows. Every store and every load of the body is of a whole block at the origin, so what a list of stores leaves is
  the last store's payload, and a load of a whole buffer reads its contents. All of this holds at any float instance.
-/
import proofs.«101226_j7533372638057_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

/-- Every store and load of the body is at the block's origin. -/
theorem hz : (![0, 0] : Fin 2 → Nat) = fun _ => 0 := funext fun a => by fin_cases a <;> rfl

/-- CASE B (a middle run of the contraction): the accumulator ends at what it held plus the product of the quantized tiles. -/
theorem sout_B (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : ¬cond0_0 i) (hc1 : ¬cond0_1 i)
    (x0 : Vec F S512x512 .f32) (x1 : Vec F S512x512 .f32) (x2 : Vec F S1x512 .f32) (xs0 : Vec F S512x512 .f32) :
    sout0_B_0 c i arg3 harg3 arg4 harg4 arg5 harg5 arg6 harg6 arg7 harg7 hc0 hc1 x0 x1 x2 xs0
      = k0_pay1 (k0_pay4 x0) (k0_pay5 x1) (k0_pay6 x1) (k0_pay7 x1) xs0 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  sl_unfold_words
  rw [View.canon_unit_zero hz]
  simp only [View.readAt_eq_ld, harg3.read_unread, harg4.read_unread, harg7.read_unread, View.ld_unit_zero (S := S512x512) hz]

/-- CASE C (the last run), the accumulator: what it held plus the product of the quantized tiles. -/
theorem sout_C (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : ¬cond0_0 i) (hc1 : cond0_1 i)
    (x0 : Vec F S512x512 .f32) (x1 : Vec F S512x512 .f32) (x2 : Vec F S1x512 .f32) (xs0 : Vec F S512x512 .f32) :
    sout0_C_0 c i arg3 harg3 arg4 harg4 arg5 harg5 arg6 harg6 arg7 harg7 hc0 hc1 x0 x1 x2 xs0
      = k0_pay1 (k0_pay4 x0) (k0_pay5 x1) (k0_pay6 x1) (k0_pay7 x1) xs0 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  rw [View.canon_unit_zero hz]
  simp only [View.readAt_eq_ld, harg3.read_unread, harg4.read_unread, harg7.read_unread, View.ld_unit_zero (S := S512x512) hz]

/-- CASE C, the output block: the accumulator after the product's store, read back, plus the bias row along the rows. -/
theorem out_C (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : ¬cond0_0 i) (hc1 : cond0_1 i)
    (x0 : Vec F S512x512 .f32) (x1 : Vec F S512x512 .f32) (x2 : Vec F S1x512 .f32) (xs0 : Vec F S512x512 .f32) :
    out0_C_3 c i arg3 harg3 arg4 harg4 arg5 harg5 arg6 harg6 arg7 harg7 hc0 hc1 x0 x1 x2 xs0
      = k0_pay2 (k0_pay1 (k0_pay4 x0) (k0_pay5 x1) (k0_pay6 x1) (k0_pay7 x1) xs0) x2 := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_unit_zero hz, View.readCov_unit_zero (S := S512x512) _ hz]
  simp only [View.readAt_eq_ld, harg3.read_unread, harg4.read_unread, harg5.read_unread, harg7.read_unread,
    View.ld_unit_zero (S := S512x512) hz, View.ld_unit_zero (S := S1x512) hz]

/-- CASE A (the first run): the accumulator is zeroed, read back, and ends at the zero block plus the product. -/
theorem sout_A (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : cond0_0 i) (hc1 : ¬cond0_1 i)
    (x0 : Vec F S512x512 .f32) (x1 : Vec F S512x512 .f32) (x2 : Vec F S1x512 .f32) :
    sout0_A_0 c i arg3 harg3 arg4 harg4 arg5 harg5 arg6 harg6 arg7 harg7 hc0 hc1 x0 x1 x2
      = k0_pay1 (k0_pay4 x0) (k0_pay5 x1) (k0_pay6 x1) (k0_pay7 x1) (k0_pay3 (F := F)) := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S512x512) hz, View.readCov_unit_zero (S := S512x512) _ hz]
  simp only [View.readAt_eq_ld, harg3.read_unread, harg4.read_unread, View.ld_unit_zero (S := S512x512) hz]

end Cert.KernelIdeal.Pieces

end
-- ==== Proof.KernelBlocks.lean ====
/-
  The tiled product's blocks as entries of the argument arrays, and the result array from the output's blocks.

  The grid is 8 × 8 × 8 with the contraction index innermost: the point `t = 64 i + 8 j + k` has `i = t / 64`, `j = t / 8 % 8`,
  `k = t % 8`. At that point the left operand's block is rows `512 i …`, columns `512 k …` of the first argument; the right
  operand's block is rows `512 k …`, columns `512 j …` of the TRANSPOSE of the second argument, so its entry `(k', n)` is the
  second argument's entry `(512 j + n, 512 k + k')`; the bias block is entries `512 j …` of the third argument, read as one
  row. The output's block `(i, j)` is written to the result array only at the points that close a run of the contraction
  (`k = 7`), and those 64 blocks of 512 × 512 tile the 4096 × 4096 array: entry `(R, N)` is written by the point
  `i = R / 512`, `j = N / 512`, `k = 7`. Arrays are read as total functions of natural-number coordinates (`nat2`, `nat1`).
-/
import proofs.«101226_j7533372638057_1_alg».proof.Proof.Gen.KernelIdeal.Value
import proofs.«101226_j7533372638057_1_alg».proof.Proof.QuantSpec
import Idealize.ShloMosaic.Lib.Pipeline.Value
import Idealize.ShloMosaic.Lib.ValueIdx
import Idealize.ShloMosaic.Lib.StableHlo.Run

noncomputable section

namespace Cert.KernelIdeal.Blocks

open Cert.KernelIdeal Cert.KernelIdeal.Gen Idealize.ShloMosaic Idealize.ShloMosaic.TcCoe Idealize.SL.Sem
open Idealize.ShloMosaic.ValueIdx QuantDot

variable (m : (ℓ : Loc nD τ sig) → Buf (Elt Ideal) ℓ)

/-- The four index maps at the point t = 64 i + 8 j + k of the 8 × 8 × 8 grid, decided over the grid. -/
theorem idx_facts : ∀ t : Fin cfg0.N,
    win0_0.index t (0 : Fin 2) = t.val / 64 ∧ win0_0.index t (1 : Fin 2) = t.val % 8
    ∧ win0_1.index t (0 : Fin 2) = t.val % 8 ∧ win0_1.index t (1 : Fin 2) = t.val / 8 % 8
    ∧ win0_2.index t (0 : Fin 2) = 0 ∧ win0_2.index t (1 : Fin 2) = t.val / 8 % 8
    ∧ win0_3.index t (0 : Fin 2) = t.val / 64 ∧ win0_3.index t (1 : Fin 2) = t.val / 8 % 8 :=
  (by decide +kernel : ∀ t : Fin grid0.N, _)

/-! ## The three staged arrays, as the region finds them -/

/-- The second staged array is the transpose of the second argument. -/
theorem staged1_eq (c : Dev nD) :
    (V m c main_v0 : S4096x4096.Idx → EReal)
      = transpose S4096x4096 [1, 0] (m ((c : Thread nD τ).loc main_arg1)) transposes_S4096x4096_S4096x4096_1_0 := by
  dsimp only [Gen.V, Gen.hostOps0]; after_results

/-- The third staged array is the third argument as one row. -/
theorem staged2_eq (c : Dev nD) :
    (V m c main_v1 : S1x4096.Idx → EReal)
      = shapeCast S1x4096 (m ((c : Thread nD τ).loc main_arg2)) shapeCasts_S4096_S1x4096 := by
  dsimp only [Gen.V, Gen.hostOps0]; after_results; rfl

/-- A transposed square array at (p, q) is the array at (q, p). -/
theorem transpose_ix2 (x : S4096x4096.Idx → EReal) (h : S4096x4096.Transposes [1, 0] S4096x4096) (p q : Fin 4096) :
    transpose S4096x4096 [1, 0] x h (ix2 p q) = x (ix2 q p) :=
  transpose_apply [1, 0] x h (ix2 p q) (ix2 q p) fun b => by
    match b with
    | ⟨0, _⟩ => rfl
    | ⟨1, _⟩ => rfl

/-- A vector read as one row: entry (0, q) is entry q. -/
theorem row_ix2 (x : S4096.Idx → EReal) (h : S4096.ShapeCasts S1x4096) (z : Fin 1) (q : Fin 4096) :
    shapeCast S1x4096 x h (ix2 z q) = x (ix1 q) :=
  shapeCast_apply x h _ _ (by
    have hz : z.val = 0 := by omega
    rw [Shape.rowMajor_val_one, Shape.rowMajor_val_two]
    show q.val = z.val * 4096 + q.val
    omega)

/-- The first staged array at an index is the first argument there. -/
theorem staged0_at (c : Dev nD) (j : S4096x4096.Idx) (p q : Fin 4096) (hp : (j 0).val = p.val) (hq : (j 1).val = q.val) :
    V m c main_arg0 j = m ((c : Thread nD τ).loc main_arg0) (ix2 p q) := by
  obtain rfl : j = ix2 p q := funext fun a => Fin.ext (by
    match a with
    | ⟨0, _⟩ => exact hp
    | ⟨1, _⟩ => exact hq)
  exact congrFun (V_main_arg0 m c) _

/-- The second staged array at (p, q) is the second argument at (q, p). -/
theorem staged1_at (c : Dev nD) (j : S4096x4096.Idx) (p q : Fin 4096) (hp : (j 0).val = p.val) (hq : (j 1).val = q.val) :
    V m c main_v0 j = m ((c : Thread nD τ).loc main_arg1) (ix2 q p) := by
  obtain rfl : j = ix2 p q := funext fun a => Fin.ext (by
    match a with
    | ⟨0, _⟩ => exact hp
    | ⟨1, _⟩ => exact hq)
  exact (congrFun (staged1_eq m c) _).trans (transpose_ix2 _ _ p q)

/-- The third staged array at (0, q) is the third argument at q. -/
theorem staged2_at (c : Dev nD) (j : S1x4096.Idx) (q : Fin 4096) (hq : (j 1).val = q.val) :
    V m c main_v1 j = m ((c : Thread nD τ).loc main_arg2) (ix1 q) := by
  have hj : j = ix2 (j 0) q := funext fun a => Fin.ext (by
    match a with
    | ⟨0, _⟩ => rfl
    | ⟨1, _⟩ => exact hq)
  exact (congrArg (V m c main_v1) hj).trans ((congrFun (staged2_eq m c) _).trans (row_ix2 _ _ (j 0) q))

/-! ## The blocks the three input windows stage at a point -/

/-- The left operand's block at point t = 64 i + 8 j + k is rows 512 i …, columns 512 k … of the first argument. -/
theorem iblk0_apply (c : Dev nD) (t : Fin cfg0.N) (r k : Fin 512) :
    (iblk m c 0 t : Vec Ideal S512x512 .f32) (ix2 r k)
      = nat2 (m ((c : Thread nD τ).loc main_arg0)) (512 * (t.val / 64) + r.val) (512 * (t.val % 8) + k.val) := by
  obtain ⟨e0, e1, -⟩ := idx_facts t
  have hN : t.val < 512 := lt_of_lt_of_eq t.isLt N_0
  have hr := r.isLt
  have hk := k.isLt
  rw [nat2_of_lt _ (show 512 * (t.val / 64) + r.val < 4096 by omega) (show 512 * (t.val % 8) + k.val < 4096 by omega)]
  unfold iblk
  rw [View.read_apply]
  show V m c main_arg0 _ = _
  refine staged0_at m c _ ⟨512 * (t.val / 64) + r.val, by omega⟩ ⟨512 * (t.val % 8) + k.val, by omega⟩ ?_ ?_
  · show win0_0.index t (0 : Fin 2) * 512 + 1 * r.val = 512 * (t.val / 64) + r.val
    rw [e0]; omega
  · show win0_0.index t (1 : Fin 2) * 512 + 1 * k.val = 512 * (t.val % 8) + k.val
    rw [e1]; omega

/-- The right operand's block at point t is rows 512 k …, columns 512 j … of the TRANSPOSE of the second argument. -/
theorem iblk1_apply (c : Dev nD) (t : Fin cfg0.N) (k n : Fin 512) :
    (iblk m c 1 t : Vec Ideal S512x512 .f32) (ix2 k n)
      = nat2 (m ((c : Thread nD τ).loc main_arg1)) (512 * (t.val / 8 % 8) + n.val) (512 * (t.val % 8) + k.val) := by
  obtain ⟨-, -, e0, e1, -⟩ := idx_facts t
  have hN : t.val < 512 := lt_of_lt_of_eq t.isLt N_0
  have hn := n.isLt
  have hk := k.isLt
  rw [nat2_of_lt _ (show 512 * (t.val / 8 % 8) + n.val < 4096 by omega) (show 512 * (t.val % 8) + k.val < 4096 by omega)]
  unfold iblk
  rw [View.read_apply]
  show V m c main_v0 _ = _
  refine staged1_at m c _ ⟨512 * (t.val % 8) + k.val, by omega⟩ ⟨512 * (t.val / 8 % 8) + n.val, by omega⟩ ?_ ?_
  · show win0_1.index t (0 : Fin 2) * 512 + 1 * k.val = 512 * (t.val % 8) + k.val
    rw [e0]; omega
  · show win0_1.index t (1 : Fin 2) * 512 + 1 * n.val = 512 * (t.val / 8 % 8) + n.val
    rw [e1]; omega

/-- The bias block at point t is entries 512 j … of the third argument. -/
theorem iblk2_apply (c : Dev nD) (t : Fin cfg0.N) (n : Fin 512) :
    (iblk m c 2 t : Vec Ideal S1x512 .f32) (ix2 (0 : Fin 1) n)
      = nat1 (m ((c : Thread nD τ).loc main_arg2)) (512 * (t.val / 8 % 8) + n.val) := by
  obtain ⟨-, -, -, -, -, e1, -⟩ := idx_facts t
  have hN : t.val < 512 := lt_of_lt_of_eq t.isLt N_0
  have hn := n.isLt
  rw [nat1_of_lt _ (show 512 * (t.val / 8 % 8) + n.val < 4096 by omega)]
  unfold iblk
  rw [View.read_apply]
  show V m c main_v1 _ = _
  refine staged2_at m c _ ⟨512 * (t.val / 8 % 8) + n.val, by omega⟩ ?_
  show win0_2.index t (1 : Fin 2) * 512 + 1 * n.val = 512 * (t.val / 8 % 8) + n.val
  rw [e1]; omega

/-! ## From the output's blocks to the result array -/

/-- An index of the result array is in point t's block iff each coordinate is in the block's range on its axis. -/
theorem mem_blk3 (t : Fin cfg0.N) (i : S4096x4096.Idx) :
    i ∈ ((cfg0.win 3).blk t).view.set
      ↔ ∀ a : Fin 2, win0_3.index t a * S512x512.size a ≤ (i a).val ∧ (i a).val < win0_3.index t a * S512x512.size a + S512x512.size a := by
  show i ∈ ((View.whole main_v2).slice (win0_3.rect t)).set ↔ _
  rw [View.set_slice_whole, Rect.mem_set_unit]
  exact Iff.rfl

/-- THE RESULT ARRAY: if at every point that closes a run of the contraction (k = 7) the output's block holds the
    entries `out X W B` of its rows 512 i … and columns 512 j …, the array ends holding `out X W B` everywhere: the
    point that writes entry (R, N) is i = R / 512, j = N / 512, k = 7. -/
theorem final_of (c : Dev nD) (X W : ℕ → ℕ → EReal) (B : ℕ → EReal)
    (H : ∀ t : Fin cfg0.N, t.val % 8 = 7 → ∀ r n : Fin 512,
          (outsAt0 m c t.val t.isLt).1 (ix2 r n) = out X W B (512 * (t.val / 64) + r.val) (512 * (t.val / 8 % 8) + n.val)) :
    (dats m 0 c).arrAt 3 cfg0.N = fun i => out X W B (i 0).val (i 1).val := by
  refine (dats m 0 c).arrAt_eq_of_cover 3 (fun i => out X W B (i 0).val (i 1).val) (fun t hf => ?_) (fun i => ?_)
  · have h7 : t.val % 8 = 7 := (flush0_3 t).mp hf
    obtain ⟨-, -, -, -, -, -, e0, e1⟩ := idx_facts t
    have H' : ∀ y : S512x512.Idx, (outsAt0 m c t.val t.isLt).1 y
        = out X W B (512 * (t.val / 64) + (y 0).val) (512 * (t.val / 8 % 8) + (y 1).val) :=
      fun y => (congrArg (outsAt0 m c t.val t.isLt).1 (eq_ix2 y)).trans (H t h7 (y 0) (y 1))
    rw [Value.flushed3]
    funext j
    rw [View.read_apply]
    show (outsAt0 m c t.val t.isLt).1 ((cfg0.win 3).xinj (grid0.coords t) j)
      = out X W B (win0_3.index t (0 : Fin 2) * 512 + 1 * (j 0).val) (win0_3.index t (1 : Fin 2) * 512 + 1 * (j 1).val)
    refine (H' _).trans ?_
    show out X W B (512 * (t.val / 64) + (j 0).val) (512 * (t.val / 8 % 8) + (j 1).val)
      = out X W B (win0_3.index t (0 : Fin 2) * 512 + 1 * (j 0).val) (win0_3.index t (1 : Fin 2) * 512 + 1 * (j 1).val)
    rw [e0, e1]
    congr 1 <;> omega
  · have h0 : (i 0).val < 4096 := (i 0).isLt
    have h1 : (i 1).val < 4096 := (i 1).isLt
    have hN : cfg0.N = 512 := N_0
    let t : Fin cfg0.N := ⟨64 * ((i 0).val / 512) + 8 * ((i 1).val / 512) + 7, by rw [hN]; omega⟩
    have ht : t.val = 64 * ((i 0).val / 512) + 8 * ((i 1).val / 512) + 7 := rfl
    obtain ⟨-, -, -, -, -, -, e0, e1⟩ := idx_facts t
    refine ⟨t, (flush0_3 t).mpr (by rw [ht]; omega), ?_⟩
    rw [mem_blk3]
    intro a
    match a with
    | ⟨0, _⟩ =>
      show win0_3.index t (0 : Fin 2) * 512 ≤ (i 0).val ∧ (i 0).val < win0_3.index t (0 : Fin 2) * 512 + 512
      rw [e0, ht]; omega
    | ⟨1, _⟩ =>
      show win0_3.index t (1 : Fin 2) * 512 ≤ (i 1).val ∧ (i 1).val < win0_3.index t (1 : Fin 2) * 512 + 512
      rw [e1, ht]; omega

end Cert.KernelIdeal.Blocks

end
-- ==== Proof.Accumulate.lean ====
/-
  What the kernel's accumulator and output hold, point by point.

  The grid is (8, 8, 8) = (i, j, k) with k innermost: point t has i = t / 64, j = t / 8 % 8, k = t % 8, and works on the tile
  pair (rows 512 i …, columns 512 k …) of the left operand and (rows 512 k …, columns 512 j …) of the right one. The eight
  points of a run — one output block (i, j) — share the accumulator: the first stores zero plus its product, each later one
  adds its product, and the last also writes accumulator plus bias row into the output block. So after point t the
  accumulator holds, at (r, q), the running sum `part` of the runs 0 … t % 8 of the contraction for the array entry
  (512 i + r, 512 j + q) — by induction on the point — and at the last point of a run the output block holds the whole
  contraction plus the bias: the specification's entry.
-/
import proofs.«101226_j7533372638057_1_alg».proof.Proof.Gen.KernelIdeal.Value
import proofs.«101226_j7533372638057_1_alg».proof.Proof.TileValue
import proofs.«101226_j7533372638057_1_alg».proof.Proof.KernelPieces
import proofs.«101226_j7533372638057_1_alg».proof.Proof.KernelBlocks

noncomputable section
namespace Cert.KernelIdeal.Acc
open Cert.KernelIdeal Cert.KernelIdeal.Gen Idealize.ShloMosaic Idealize.ShloMosaic.TcCoe Idealize.SL.Sem
open Idealize.ShloMosaic.ValueIdx QuantDot

variable (m : (ℓ : Loc nD τ sig) → Buf (Elt Ideal) ℓ) (ρ : Dev nD → PrngReg)

/-- The left operand as launched. -/
def X (c : Dev nD) : ℕ → ℕ → EReal := nat2 (m ((c : Thread nD τ).loc main_arg0))
/-- The right operand: the transpose of the second argument as launched. -/
def W (c : Dev nD) : ℕ → ℕ → EReal := fun K n => nat2 (m ((c : Thread nD τ).loc main_arg1)) n K
/-- The bias as launched. -/
def B (c : Dev nD) : ℕ → EReal := nat1 (m ((c : Thread nD τ).loc main_arg2))

/-- A POINT'S STEP in terms of the arrays: what point t stores into the accumulator holding `acc` is `acc` plus run t % 8 of the
    contraction for the entries of output block (t / 64, t / 8 % 8). -/
theorem step_val (c : Dev nD) (n : ℕ) (h : n < cfg0.N) (acc : Vec Ideal S512x512 .f32) (r q : Fin 512) :
    k0_pay1 (F := Ideal) (k0_pay4 (iblk m c 0 ⟨n, h⟩)) (k0_pay5 (iblk m c 1 ⟨n, h⟩)) (k0_pay6 (iblk m c 1 ⟨n, h⟩)) (k0_pay7 (iblk m c 1 ⟨n, h⟩)) acc (ix2 r q)
      = acc (ix2 r q) + run (X m c) (W m c) (512 * (n / 64) + r.val) (512 * (n / 8 % 8) + q.val) (n % 8) :=
  Tile.acc_step (iblk m c 0 ⟨n, h⟩) (iblk m c 1 ⟨n, h⟩) acc (X m c) (W m c) (512 * (n / 64)) (512 * (n % 8)) (512 * (n / 8 % 8))
    ⟨16 * (n % 8), by omega⟩ ⟨16 * (n / 8 % 8), by omega⟩
    (fun r k => Blocks.iblk0_apply m c ⟨n, h⟩ r k) (fun k n' => Blocks.iblk1_apply m c ⟨n, h⟩ k n') r q

/-- THE ACCUMULATOR AFTER POINT n holds the running sum of the runs 0 … n % 8 for its output block. -/
theorem scratch_eq (c : Dev nD) (n : ℕ) : ∀ (h : n < cfg0.N) (r q : Fin 512),
    (outsAt0 m c n h).2 (ix2 r q)
      = part (X m c) (W m c) (512 * (n / 64) + r.val) (512 * (n / 8 % 8) + q.val) (n % 8) := by
  induction n with
  | zero =>
    intro h r q
    rw [outsAt0_A m c ⟨0, h⟩ rfl (show ¬ (0 % 8 = 7) from by decide)]
    dsimp only
    rw [Pieces.sout_A, step_val m c 0 h, Tile.zero_block]
    exact (part_zero _ _ _ _).symm
  | succ n ih =>
    intro h r q
    have hN : n + 1 < 512 := lt_of_lt_of_eq h (show cfg0.N = 512 from N_0)
    by_cases h0 : (n + 1) % 8 = 0
    · have h1 : ¬ (n + 1) % 8 = 7 := by omega
      rw [outsAt0_A m c ⟨n + 1, h⟩ h0 h1]
      dsimp only
      rw [Pieces.sout_A, step_val m c (n + 1) h, Tile.zero_block, h0]
      exact (part_zero _ _ _ _).symm
    · have ih' := ih (Nat.lt_of_succ_lt h) r q
      have e64 : n / 64 = (n + 1) / 64 := by omega
      have e8 : n / 8 % 8 = (n + 1) / 8 % 8 := by omega
      have ek : (n + 1) % 8 = n % 8 + 1 := by omega
      rw [e64, e8] at ih'
      by_cases h1 : (n + 1) % 8 = 7
      · rw [outsAt0_C m c ⟨n + 1, h⟩ h0 h1]
        dsimp only
        rw [Pieces.sout_C, step_val m c (n + 1) h]
        show (outsAt0 m c n _).2 (ix2 r q) + _ = _
        rw [ih', ek]
        exact (part_succ _ _ _ _ _).symm
      · rw [outsAt0_B m c ⟨n + 1, h⟩ h0 h1]
        dsimp only
        rw [Pieces.sout_B, step_val m c (n + 1) h]
        show (outsAt0 m c n _).2 (ix2 r q) + _ = _
        rw [ih', ek]
        exact (part_succ _ _ _ _ _).symm

/-- AT THE LAST POINT OF A RUN the output block holds the specification's entries: the whole contraction plus the bias. -/
theorem out_eq (c : Dev nD) (t : Fin cfg0.N) (h7 : t.val % 8 = 7) (r q : Fin 512) :
    (outsAt0 m c t.val t.isLt).1 (ix2 r q)
      = out (X m c) (W m c) (B m c) (512 * (t.val / 64) + r.val) (512 * (t.val / 8 % 8) + q.val) := by
  have h0 : ¬ t.val % 8 = 0 := by omega
  have hs := scratch_eq m c t.val t.isLt r q
  rw [outsAt0_C m c t h0 h7] at hs ⊢
  dsimp only at hs ⊢
  rw [Pieces.sout_C] at hs
  rw [Pieces.out_C, Tile.bias_step, hs, h7, part_seven, Blocks.iblk2_apply m c t q]
  rfl

/-- So the result array after the run is the specification's, of the arguments as launched. -/
theorem final (c : Dev nD) :
    (dats m 0 c).arrAt 3 cfg0.N
      = G (m ((c : Thread nD τ).loc main_arg0)) (m ((c : Thread nD τ).loc main_arg1)) (m ((c : Thread nD τ).loc main_arg2)) :=
  Blocks.final_of m c (X m c) (W m c) (B m c) fun t h7 r q => out_eq m c t h7 r q

/-- THE KERNEL'S RUN, READ: every weakly fair execution terminates with the result array at the specification of the arguments
    as launched, the arguments unchanged. -/
theorem run_G : θ_run defs (onTc (τ := τ) (main (F := Ideal))) ⟨m, fun _ => 0, ρ⟩ fun r => ∀ c : Dev nD,
      r.2.mem ((c : Thread nD τ).loc main_v2)
          = G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Value.run_blocks m ρ)

end Cert.KernelIdeal.Acc
end
-- ==== Proof.lean ====
/-
  The claim: the quantized tiled matrix product and its jnp reference are one function of the arguments.

  Both programs compute, from x : [4096, 4096], weight : [4096, 4096] and bias : [4096], the array
      G (r, n) = ∑ K < 4096, xq (r, K) · wq (K, n) + bias n,
  where xq is x quantized per row over groups of 32 columns and wq is the transpose of weight quantized over 32 × 32 blocks
  (a block's largest absolute value m, or 1 when m = 0, gives the scale 127 / m; an entry v is read back as
  clip (round (v · scale)) (−127) 127 divided by the scale): `QuantDot.G`.

  The reference computes G in one piece: each quantized operand whole, one product over all 4096 positions, the bias broadcast
  along the rows (`RefSpec.ref_is_G`). The kernel computes it tile by tile on a grid of 8 × 8 × 8 points: a point quantizes a
  512 × 512 tile of each operand — a tile's groups and blocks ARE the arrays' groups and blocks, the tile offsets being multiples
  of 32 — and adds the tiles' product to an accumulator that the eight points of an output block share; the eighth writes
  accumulator plus bias. Over the extended reals addition is associative and commutative with no condition on the summands, so
  the eight partial sums of 512 positions add up to the one sum over 4096 (`QuantDot.part_seven`), and the output block is G's
  block (`Acc.final`). Nothing here needs the inputs to be finite: the precondition is never opened.

  The ideal pass rewrote no operation of the kernel, so the kernel's idealization is its own text read at the ideal values.
-/
import proofs.«101226_j7533372638057_1_alg».proof.Defs
import proofs.«101226_j7533372638057_1_alg».proof.Proof.Gen.Kernel
import proofs.«101226_j7533372638057_1_alg».proof.Proof.Gen.Kernel.Skeleton
import proofs.«101226_j7533372638057_1_alg».proof.Proof.Gen.Kernel.Launch
import proofs.«101226_j7533372638057_1_alg».proof.Proof.Gen.Kernel.Points
import proofs.«101226_j7533372638057_1_alg».proof.Proof.Gen.Kernel.Frame
import proofs.«101226_j7533372638057_1_alg».proof.Proof.Gen.KernelIdeal
import proofs.«101226_j7533372638057_1_alg».proof.Proof.Gen.KernelIdeal.Skeleton
import proofs.«101226_j7533372638057_1_alg».proof.Proof.Gen.KernelIdeal.Launch
import proofs.«101226_j7533372638057_1_alg».proof.Proof.Gen.KernelIdeal.Points
import proofs.«101226_j7533372638057_1_alg».proof.Proof.Gen.KernelIdeal.Frame
import proofs.«101226_j7533372638057_1_alg».proof.Proof.Gen.ReferenceIdeal
import proofs.«101226_j7533372638057_1_alg».proof.Proof.Gen.Pre_finite_inputs
import proofs.«101226_j7533372638057_1_alg».proof.Proof.Gen.KernelIdeal.Value
import proofs.«101226_j7533372638057_1_alg».proof.Proof.RefRun
import proofs.«101226_j7533372638057_1_alg».proof.Proof.RefRead
import proofs.«101226_j7533372638057_1_alg».proof.Proof.RefIsSpec
import proofs.«101226_j7533372638057_1_alg».proof.Proof.Accumulate
import Idealize.ShloMosaic.Adequacy
import Idealize.ShloMosaic.Init

noncomputable section

namespace Cert.Proof

open Idealize.ShloMosaic Idealize.ShloMosaic.TcCoe Idealize.SL.Sem

/-- The kernel as printed runs, faults nowhere, and leaves its arguments as they were. -/
theorem frame_k : Cert.frame_Kernel (hKernel := Cert.Kernel.Gen.facts) (hPre_finite_inputs := Cert.Pre_finite_inputs.Gen.facts) :=
  fun m ρ _ => Cert.Kernel.Gen.frame m ρ

/-- So does the kernel read at the ideal values. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- So does the reference: its run, with what it says of the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefRun.run (F := Ideal) m ρ)

/-- The ideal pass rewrote nothing. -/
theorem preserves : Cert.preserves_Kernel_KernelIdeal := trivial

/-- From memories that agree on the three arguments both programs end with the result array at G of those arguments: the
    kernel by its accumulation over the grid, the reference by its one product. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => QuantDot.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Acc.run_G m ρ, ?_⟩
  refine (θ_run Cert.ReferenceIdeal.defs _ _).mono (fun _ h c => ⟨(h c).1.trans ?_, (h c).2⟩)
    (Cert.ReferenceIdeal.RefRun.run (F := Ideal) m' ρ')
  rw [Cert.ReferenceIdeal.ReadP.val_main_v38_eq, Cert.ReferenceIdeal.RefSpec.ref_is_G, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
